-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel

variable [Facts]

def fn {F : FTy → Type} [FloatOps F] (main_arg0 : FVec F S16x512x64x64 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  main_v3
-- ==== Kernel.lean ====
abbrev S16x512x64x64 : Shape := ⟨4, ![16, 512, 64, 64]⟩
abbrev S16x512x4096 : Shape := ⟨3, ![16, 512, 4096]⟩
abbrev S1x256x4096 : Shape := ⟨3, ![1, 256, 4096]⟩
abbrev S256x4096 : Shape := ⟨2, ![256, 4096]⟩
abbrev S256x4x16x4x16 : Shape := ⟨5, ![256, 4, 16, 4, 16]⟩
abbrev S256x4x4x16x16 : Shape := ⟨5, ![256, 4, 4, 16, 16]⟩
abbrev S256x16x256 : Shape := ⟨3, ![256, 16, 256]⟩
abbrev S16x16x256 : Shape := ⟨3, ![16, 16, 256]⟩
abbrev S16x15x256 : Shape := ⟨3, ![16, 15, 256]⟩
abbrev S16x1x256 : Shape := ⟨3, ![16, 1, 256]⟩
abbrev S16x14x256 : Shape := ⟨3, ![16, 14, 256]⟩
abbrev S16x2x256 : Shape := ⟨3, ![16, 2, 256]⟩
abbrev S16x13x256 : Shape := ⟨3, ![16, 13, 256]⟩
abbrev S16x3x256 : Shape := ⟨3, ![16, 3, 256]⟩
abbrev S16x12x256 : Shape := ⟨3, ![16, 12, 256]⟩
abbrev S16x4x256 : Shape := ⟨3, ![16, 4, 256]⟩
abbrev S16x11x256 : Shape := ⟨3, ![16, 11, 256]⟩
abbrev S16x5x256 : Shape := ⟨3, ![16, 5, 256]⟩
abbrev S16x10x256 : Shape := ⟨3, ![16, 10, 256]⟩
abbrev S16x6x256 : Shape := ⟨3, ![16, 6, 256]⟩
abbrev S16x9x256 : Shape := ⟨3, ![16, 9, 256]⟩
abbrev S16x7x256 : Shape := ⟨3, ![16, 7, 256]⟩
abbrev S16x8x256 : Shape := ⟨3, ![16, 8, 256]⟩

abbrev nBuf : Space → Nat
  | .hbm => 4
  | .vmem => 4
  | .smem => 0
  | _ => 0

abbrev bufTy : (tb : Table) → Fin (tcTables nBuf tb) → BufTy
  | .hbm, ⟨0, _⟩ => ⟨S16x512x64x64, .f32⟩
  | .hbm, ⟨1, _⟩ => ⟨S16x512x4096, .f32⟩
  | .hbm, ⟨2, _⟩ => ⟨S16x512x4096, .f32⟩
  | .hbm, ⟨3, _⟩ => ⟨S16x512x64x64, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x512x64x64_S16x512x4096 : S16x512x64x64.ShapeCasts S16x512x4096
  shapeCasts_S16x512x4096_S16x512x64x64 : S16x512x4096.ShapeCasts S16x512x64x64
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S256x4x16x4x16 : S256x4096.ShapeCasts S256x4x16x4x16
  transposes_S256x4x16x4x16_p0_1_3_2_4_S256x4x4x16x16 : S256x4x16x4x16.Transposes [0, 1, 3, 2, 4] S256x4x4x16x16
  shapeCasts_S256x4x4x16x16_S256x16x256 : S256x4x4x16x16.ShapeCasts S256x16x256
  slices_S256x16x256_o0_0_0_S16x16x256 : S256x16x256.Slices ![0, 0, 0] S16x16x256
  slices_S256x16x256_o16_0_0_S16x16x256 : S256x16x256.Slices ![16, 0, 0] S16x16x256
  slices_S16x16x256_o0_1_0_S16x15x256 : S16x16x256.Slices ![0, 1, 0] S16x15x256
  slices_S16x16x256_o0_0_0_S16x1x256 : S16x16x256.Slices ![0, 0, 0] S16x1x256
  concatenates_S16x15x256_S16x1x256_S16x16x256_d1 : Shape.Concatenates [S16x15x256, S16x1x256] S16x16x256 1
  slices_S256x16x256_o32_0_0_S16x16x256 : S256x16x256.Slices ![32, 0, 0] S16x16x256
  slices_S16x16x256_o0_2_0_S16x14x256 : S16x16x256.Slices ![0, 2, 0] S16x14x256
  slices_S16x16x256_o0_0_0_S16x2x256 : S16x16x256.Slices ![0, 0, 0] S16x2x256
  concatenates_S16x14x256_S16x2x256_S16x16x256_d1 : Shape.Concatenates [S16x14x256, S16x2x256] S16x16x256 1
  slices_S256x16x256_o48_0_0_S16x16x256 : S256x16x256.Slices ![48, 0, 0] S16x16x256
  slices_S16x16x256_o0_3_0_S16x13x256 : S16x16x256.Slices ![0, 3, 0] S16x13x256
  slices_S16x16x256_o0_0_0_S16x3x256 : S16x16x256.Slices ![0, 0, 0] S16x3x256
  concatenates_S16x13x256_S16x3x256_S16x16x256_d1 : Shape.Concatenates [S16x13x256, S16x3x256] S16x16x256 1
  slices_S256x16x256_o64_0_0_S16x16x256 : S256x16x256.Slices ![64, 0, 0] S16x16x256
  slices_S16x16x256_o0_4_0_S16x12x256 : S16x16x256.Slices ![0, 4, 0] S16x12x256
  slices_S16x16x256_o0_0_0_S16x4x256 : S16x16x256.Slices ![0, 0, 0] S16x4x256
  concatenates_S16x12x256_S16x4x256_S16x16x256_d1 : Shape.Concatenates [S16x12x256, S16x4x256] S16x16x256 1
  slices_S256x16x256_o80_0_0_S16x16x256 : S256x16x256.Slices ![80, 0, 0] S16x16x256
  slices_S16x16x256_o0_5_0_S16x11x256 : S16x16x256.Slices ![0, 5, 0] S16x11x256
  slices_S16x16x256_o0_0_0_S16x5x256 : S16x16x256.Slices ![0, 0, 0] S16x5x256
  concatenates_S16x11x256_S16x5x256_S16x16x256_d1 : Shape.Concatenates [S16x11x256, S16x5x256] S16x16x256 1
  slices_S256x16x256_o96_0_0_S16x16x256 : S256x16x256.Slices ![96, 0, 0] S16x16x256
  slices_S16x16x256_o0_6_0_S16x10x256 : S16x16x256.Slices ![0, 6, 0] S16x10x256
  slices_S16x16x256_o0_0_0_S16x6x256 : S16x16x256.Slices ![0, 0, 0] S16x6x256
  concatenates_S16x10x256_S16x6x256_S16x16x256_d1 : Shape.Concatenates [S16x10x256, S16x6x256] S16x16x256 1
  slices_S256x16x256_o112_0_0_S16x16x256 : S256x16x256.Slices ![112, 0, 0] S16x16x256
  slices_S16x16x256_o0_7_0_S16x9x256 : S16x16x256.Slices ![0, 7, 0] S16x9x256
  slices_S16x16x256_o0_0_0_S16x7x256 : S16x16x256.Slices ![0, 0, 0] S16x7x256
  concatenates_S16x9x256_S16x7x256_S16x16x256_d1 : Shape.Concatenates [S16x9x256, S16x7x256] S16x16x256 1
  slices_S256x16x256_o128_0_0_S16x16x256 : S256x16x256.Slices ![128, 0, 0] S16x16x256
  slices_S16x16x256_o0_8_0_S16x8x256 : S16x16x256.Slices ![0, 8, 0] S16x8x256
  slices_S16x16x256_o0_0_0_S16x8x256 : S16x16x256.Slices ![0, 0, 0] S16x8x256
  concatenates_S16x8x256_S16x8x256_S16x16x256_d1 : Shape.Concatenates [S16x8x256, S16x8x256] S16x16x256 1
  slices_S256x16x256_o144_0_0_S16x16x256 : S256x16x256.Slices ![144, 0, 0] S16x16x256
  slices_S16x16x256_o0_9_0_S16x7x256 : S16x16x256.Slices ![0, 9, 0] S16x7x256
  slices_S16x16x256_o0_0_0_S16x9x256 : S16x16x256.Slices ![0, 0, 0] S16x9x256
  concatenates_S16x7x256_S16x9x256_S16x16x256_d1 : Shape.Concatenates [S16x7x256, S16x9x256] S16x16x256 1
  slices_S256x16x256_o160_0_0_S16x16x256 : S256x16x256.Slices ![160, 0, 0] S16x16x256
  slices_S16x16x256_o0_10_0_S16x6x256 : S16x16x256.Slices ![0, 10, 0] S16x6x256
  slices_S16x16x256_o0_0_0_S16x10x256 : S16x16x256.Slices ![0, 0, 0] S16x10x256
  concatenates_S16x6x256_S16x10x256_S16x16x256_d1 : Shape.Concatenates [S16x6x256, S16x10x256] S16x16x256 1
  slices_S256x16x256_o176_0_0_S16x16x256 : S256x16x256.Slices ![176, 0, 0] S16x16x256
  slices_S16x16x256_o0_11_0_S16x5x256 : S16x16x256.Slices ![0, 11, 0] S16x5x256
  slices_S16x16x256_o0_0_0_S16x11x256 : S16x16x256.Slices ![0, 0, 0] S16x11x256
  concatenates_S16x5x256_S16x11x256_S16x16x256_d1 : Shape.Concatenates [S16x5x256, S16x11x256] S16x16x256 1
  slices_S256x16x256_o192_0_0_S16x16x256 : S256x16x256.Slices ![192, 0, 0] S16x16x256
  slices_S16x16x256_o0_12_0_S16x4x256 : S16x16x256.Slices ![0, 12, 0] S16x4x256
  slices_S16x16x256_o0_0_0_S16x12x256 : S16x16x256.Slices ![0, 0, 0] S16x12x256
  concatenates_S16x4x256_S16x12x256_S16x16x256_d1 : Shape.Concatenates [S16x4x256, S16x12x256] S16x16x256 1
  slices_S256x16x256_o208_0_0_S16x16x256 : S256x16x256.Slices ![208, 0, 0] S16x16x256
  slices_S16x16x256_o0_13_0_S16x3x256 : S16x16x256.Slices ![0, 13, 0] S16x3x256
  slices_S16x16x256_o0_0_0_S16x13x256 : S16x16x256.Slices ![0, 0, 0] S16x13x256
  concatenates_S16x3x256_S16x13x256_S16x16x256_d1 : Shape.Concatenates [S16x3x256, S16x13x256] S16x16x256 1
  slices_S256x16x256_o224_0_0_S16x16x256 : S256x16x256.Slices ![224, 0, 0] S16x16x256
  slices_S16x16x256_o0_14_0_S16x2x256 : S16x16x256.Slices ![0, 14, 0] S16x2x256
  slices_S16x16x256_o0_0_0_S16x14x256 : S16x16x256.Slices ![0, 0, 0] S16x14x256
  concatenates_S16x2x256_S16x14x256_S16x16x256_d1 : Shape.Concatenates [S16x2x256, S16x14x256] S16x16x256 1
  slices_S256x16x256_o240_0_0_S16x16x256 : S256x16x256.Slices ![240, 0, 0] S16x16x256
  slices_S16x16x256_o0_15_0_S16x1x256 : S16x16x256.Slices ![0, 15, 0] S16x1x256
  slices_S16x16x256_o0_0_0_S16x15x256 : S16x16x256.Slices ![0, 0, 0] S16x15x256
  concatenates_S16x1x256_S16x15x256_S16x16x256_d1 : Shape.Concatenates [S16x1x256, S16x15x256] S16x16x256 1
  concatenates_S16x16x256_S16x16x256_S16x16x256_S16x16x256_S16x16x256_S16x16x256_S16x16x256_S16x16x256_S16x16x256_S16x16x256_S16x16x256_S16x16x256_S16x16x256_S16x16x256_S16x16x256_S16x16x256_S256x16x256_d0 : Shape.Concatenates [S16x16x256, S16x16x256, S16x16x256, S16x16x256, S16x16x256, S16x16x256, S16x16x256, S16x16x256, S16x16x256, S16x16x256, S16x16x256, S16x16x256, S16x16x256, S16x16x256, S16x16x256, S16x16x256] S256x16x256 0
  shapeCasts_S256x16x256_S256x4x4x16x16 : S256x16x256.ShapeCasts S256x4x4x16x16
  transposes_S256x4x4x16x16_p0_1_3_2_4_S256x4x16x4x16 : S256x4x4x16x16.Transposes [0, 1, 3, 2, 4] S256x4x16x4x16
  shapeCasts_S256x4x16x4x16_S256x4096 : S256x4x16x4x16.ShapeCasts S256x4096
  shapeCasts_S256x4096_S1x256x4096 : S256x4096.ShapeCasts S1x256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S16x512x4096.size a
  hwx0_0 : ∀ i : grid0.Coords, EltTy.bits .f32 = 32 ∨ (Rect.block (s := S16x512x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S16x512x4096.size a
  hwx0_1 : ∀ i : grid0.Coords, EltTy.bits .f32 = 32 ∨ (Rect.block (s := S16x512x4096) S1x256x4096.size (cc0_transform_1 i) (hinb0_1 i)).WholeWords (EltTy.packing .f32)

variable [Facts₀]

abbrev win0_0 : Pipeline.Window sig grid0 :=
  Pipeline.Window.ofSpec (Memref.whole main_call0_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S16x512x64x64 : Shape := ⟨4, ![16, 512, 64, 64]⟩
abbrev S16x256x64x64 : Shape := ⟨4, ![16, 256, 64, 64]⟩
abbrev S16x16x16x4x16x4x16 : Shape := ⟨7, ![16, 16, 16, 4, 16, 4, 16]⟩
abbrev S16x16x16x16x16x4x4 : Shape := ⟨7, ![16, 16, 16, 16, 16, 4, 4]⟩
abbrev S16x16x16x16x16x16 : Shape := ⟨6, ![16, 16, 16, 16, 16, 16]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S1x16x1x1x1x16 : Shape := ⟨6, ![1, 16, 1, 1, 1, 16]⟩
abbrev S16x16x1 : Shape := ⟨3, ![16, 16, 1]⟩
abbrev S1 : Shape := ⟨1, ![1]⟩
abbrev S1x1x1 : Shape := ⟨3, ![1, 1, 1]⟩
abbrev S16x256x16x16x4x4 : Shape := ⟨6, ![16, 256, 16, 16, 4, 4]⟩
abbrev S16x256x4x16x4x16 : Shape := ⟨6, ![16, 256, 4, 16, 4, 16]⟩

abbrev nBuf : Space → Nat
  | .hbm => 63
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S16x256x64x64, .f32⟩
  | .hbm, ⟨2, _⟩ => ⟨S16x256x64x64, .f32⟩
  | .hbm, ⟨3, _⟩ => ⟨S16x16x16x4x16x4x16, .f32⟩
  | .hbm, ⟨4, _⟩ => ⟨S16x16x16x16x16x4x4, .f32⟩
  | .hbm, ⟨5, _⟩ => ⟨S16x16x16x16x16x16, .f32⟩
  | .hbm, ⟨6, _⟩ => ⟨S16, .i32⟩
  | .hbm, ⟨7, _⟩ => ⟨S16x1, .i32⟩
  | .hbm, ⟨8, _⟩ => ⟨S16, .i32⟩
  | .hbm, ⟨9, _⟩ => ⟨S1x16, .i32⟩
  | .hbm, ⟨10, _⟩ => ⟨S16x16, .i32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S16x16, .i32⟩
  | .hbm, ⟨20, _⟩ => ⟨S16x16, .i32⟩
  | .hbm, ⟨21, _⟩ => ⟨S_, .i32⟩
  | .hbm, ⟨22, _⟩ => ⟨S16x16, .i32⟩
  | .hbm, ⟨23, _⟩ => ⟨S16x16, .i1⟩
  | .hbm, ⟨24, _⟩ => ⟨S_, .i32⟩
  | .hbm, ⟨25, _⟩ => ⟨S16x16, .i32⟩
  | .hbm, ⟨26, _⟩ => ⟨S16x16, .i1⟩
  | .hbm, ⟨27, _⟩ => ⟨S_, .i32⟩
  | .hbm, ⟨28, _⟩ => ⟨S_, .i1⟩
  | .hbm, ⟨29, _⟩ => ⟨S16x16, .i1⟩
  | .hbm, ⟨30, _⟩ => ⟨S16x16, .i1⟩
  | .hbm, ⟨31, _⟩ => ⟨S16x16, .i1⟩
  | .hbm, ⟨32, _⟩ => ⟨S16x16, .i32⟩
  | .hbm, ⟨33, _⟩ => ⟨S16x16, .i32⟩
  | .hbm, ⟨34, _⟩ => ⟨S16x16, .i32⟩
  | .hbm, ⟨35, _⟩ => ⟨S1x16x1x1x1x16, .i32⟩
  | .hbm, ⟨36, _⟩ => ⟨S_, .i32⟩
  | .hbm, ⟨37, _⟩ => ⟨S1x16x1x1x1x16, .i32⟩
  | .hbm, ⟨38, _⟩ => ⟨S1x16x1x1x1x16, .i1⟩
  | .hbm, ⟨39, _⟩ => ⟨S_, .i32⟩
  | .hbm, ⟨40, _⟩ => ⟨S1x16x1x1x1x16, .i32⟩
  | .hbm, ⟨41, _⟩ => ⟨S1x16x1x1x1x16, .i32⟩
  | .hbm, ⟨42, _⟩ => ⟨S1x16x1x1x1x16, .i32⟩
  | .hbm, ⟨43, _⟩ => ⟨S16x16x1, .i32⟩
  | .hbm, ⟨44, _⟩ => ⟨S1, .i32⟩
  | .hbm, ⟨45, _⟩ => ⟨S_, .i32⟩
  | .hbm, ⟨46, _⟩ => ⟨S16x16x1, .i32⟩
  | .hbm, ⟨47, _⟩ => ⟨S16x16x1, .i1⟩
  | .hbm, ⟨48, _⟩ => ⟨S1x1x1, .i32⟩
  | .hbm, ⟨49, _⟩ => ⟨S16x16x1, .i32⟩
  | .hbm, ⟨50, _⟩ => ⟨S16x16x1, .i1⟩
  | .hbm, ⟨51, _⟩ => ⟨S16x16x1, .i1⟩
  | .hbm, ⟨52, _⟩ => ⟨S_, .i1⟩
  | .hbm, ⟨53, _⟩ => ⟨S16x16, .i1⟩
  | .hbm, ⟨54, _⟩ => ⟨S16x16x16x16x16x16, .f32⟩
  | .hbm, ⟨55, _⟩ => ⟨S16x16x16x16x16x16, .i1⟩
  | .hbm, ⟨56, _⟩ => ⟨S_, .f32⟩
  | .hbm, ⟨57, _⟩ => ⟨S16x16x16x16x16x16, .f32⟩
  | .hbm, ⟨58, _⟩ => ⟨S16x16x16x16x16x16, .f32⟩
  | .hbm, ⟨59, _⟩ => ⟨S16x256x16x16x4x4, .f32⟩
  | .hbm, ⟨60, _⟩ => ⟨S16x256x4x16x4x16, .f32⟩
  | .hbm, ⟨61, _⟩ => ⟨S16x256x64x64, .f32⟩
  | .hbm, ⟨62, _⟩ => ⟨S16x512x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v12 : Ref sig .tc := ⟨.hbm, 34, rfl⟩
abbrev main_v13 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩

abbrev nD : Nat := 1
abbrev τ : Topo := Topo.v7x

variable {F : FTy → Type} [FloatOps F]

class Facts₀ : Prop where
  slices_S16x512x64x64_S16x256x64x64_0_0_0_0 : S16x512x64x64.Slices ![0, 0, 0, 0] S16x256x64x64
  slices_S16x512x64x64_S16x256x64x64_0_256_0_0 : S16x512x64x64.Slices ![0, 256, 0, 0] S16x256x64x64
  shapeCasts_S16x256x64x64_S16x16x16x4x16x4x16 : S16x256x64x64.ShapeCasts S16x16x16x4x16x4x16
  transposes_S16x16x16x4x16x4x16_S16x16x16x16x16x4x4_0_1_2_4_6_3_5 : S16x16x16x4x16x4x16.Transposes [0, 1, 2, 4, 6, 3, 5] S16x16x16x16x16x4x4
  shapeCasts_S16x16x16x16x16x4x4_S16x16x16x16x16x16 : S16x16x16x16x16x4x4.ShapeCasts S16x16x16x16x16x16
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  shapeCasts_S16x16_S1x16x1x1x1x16 : S16x16.ShapeCasts S1x16x1x1x1x16
  bcast_S_S1x16x1x1x1x16 : S_.BroadcastsInDim S1x16x1x1x1x16 (![] : Fin 0 → Fin S1x16x1x1x1x16.rank)
  shapeCasts_S1x16x1x1x1x16_S16x16x1 : S1x16x1x1x1x16.ShapeCasts S16x16x1
  bcast_S_S16x16x1 : S_.BroadcastsInDim S16x16x1 (![] : Fin 0 → Fin S16x16x1.rank)
  bcast_S1_S1x1x1_2 : S1.BroadcastsInDim S1x1x1 (![2] : Fin 1 → Fin S1x1x1.rank)
  bcast_S1x1x1_S16x16x1_0_1_2 : S1x1x1.BroadcastsInDim S16x16x1 (![0, 1, 2] : Fin 3 → Fin S16x16x1.rank)
  reducesTo_S16x16x1_S16x16_d2 : S16x16x1.ReducesTo [2] S16x16
  h_S_ : 0 < S_.numel
  bcast_S16x16_S16x16x16x16x16x16_1_5 : S16x16.BroadcastsInDim S16x16x16x16x16x16 (![1, 5] : Fin 2 → Fin S16x16x16x16x16x16.rank)
  bcast_S_S16x16x16x16x16x16 : S_.BroadcastsInDim S16x16x16x16x16x16 (![] : Fin 0 → Fin S16x16x16x16x16x16.rank)
  shapeCasts_S16x16x16x16x16x16_S16x256x16x16x4x4 : S16x16x16x16x16x16.ShapeCasts S16x256x16x16x4x4
  transposes_S16x256x16x16x4x4_S16x256x4x16x4x16_0_1_4_2_5_3 : S16x256x16x16x4x4.Transposes [0, 1, 4, 2, 5, 3] S16x256x4x16x4x16
  shapeCasts_S16x256x4x16x4x16_S16x256x64x64 : S16x256x4x16x4x16.ShapeCasts S16x256x64x64
  concatenates_S16x256x64x64_S16x256x64x64_S16x512x64x64_d1 : Shape.Concatenates [S16x256x64x64, S16x256x64x64] S16x512x64x64 1
  gather_S16x16x16x16x16x16_S16x16x1_S16x16x16x16x16x16_0234_5_1_0_5_2_1611616161_wf : GatherDims.WF S16x16x16x16x16x16 S16x16x1 S16x16x16x16x16x16 [0, 2, 3, 4] [5] [1] [5] [0] 2 ![16, 1, 16, 16, 16, 1]

variable [Facts₀]

def gather_S16x16x16x16x16x16_S16x16x1_S16x16x16x16x16x16_0234_5_1_0_5_2_1611616161 : GatherDims S16x16x16x16x16x16 S16x16x1 S16x16x16x16x16x16 where
  offsetDims := [0, 2, 3, 4]
  collapsedSliceDims := [5]
  operandBatchingDims := [1]
  startIndicesBatchingDims := [0]
  startIndexMap := [5]
  indexVectorDim := 2
  sliceSizes := ![16, 1, 16, 16, 16, 1]
  wf := gather_S16x16x16x16x16x16_S16x16x1_S16x16x16x16x16x16_0234_5_1_0_5_2_1611616161_wf

class Facts : Prop extends Facts₀ where

variable [Facts]
-- ==== Proof.Shuffle.lean ====
/-
  The block shuffle, as one function of the argument array.

  The array is f32[16, 512, 64, 64]: batch, channel, row, column. Each 64 x 64 image is cut into a 4 x 4 grid of
  16 x 16 blocks; block number `4 * (row / 16) + column / 16` runs over 0 .. 15. Channels 0 .. 255 are kept as they
  are. Channels 256 .. 511 form sixteen groups of sixteen; in group `g = (channel - 256) / 16` the blocks are rotated
  by `g`: the result's block `k` is the argument's block `(g + k) mod 16`, the position inside the block unchanged.
  So the result at `(b, c, h, w)` is the argument at `(b, c, srcRow c h w, srcCol c h w)`.
-/
import Idealize.ShloMosaic.Lib.ValueIdx

namespace Cert.Shuffle

open Idealize.ShloMosaic Idealize.ShloMosaic.ValueIdx

/-- The number of the block the result's block at `(h, w)` of channel `c` (a shifted channel, `256 ≤ c`) is read from. -/
def srcBlock (c h w : Nat) : Nat := ((c - 256) / 16 + 4 * (h / 16) + w / 16) % 16

/-- The row the result's entry at channel `c`, row `h`, column `w` is read from. -/
def srcRow (c h w : Nat) : Nat := if c < 256 then h else srcBlock c h w / 4 * 16 + h % 16

/-- The column the result's entry at channel `c`, row `h`, column `w` is read from. -/
def srcCol (c h w : Nat) : Nat := if c < 256 then w else srcBlock c h w % 4 * 16 + w % 16

theorem srcRow_lt {c h w : Nat} (hh : h < 64) : srcRow c h w < 64 := by
  unfold srcRow srcBlock; split <;> omega

theorem srcCol_lt {c h w : Nat} (hw : w < 64) : srcCol c h w < 64 := by
  unfold srcCol srcBlock; split <;> omega

/-- The array's shape. -/
abbrev X : Shape := ⟨4, ![16, 512, 64, 64]⟩

/-- Where the result's entry `(b, c, h, w)` is read from. -/
def src (b : Fin 16) (c : Fin 512) (h : Fin 64) (w : Fin 64) : X.Idx :=
  ix4 b c ⟨srcRow c.val h.val w.val, srcRow_lt h.isLt⟩ ⟨srcCol c.val h.val w.val, srcCol_lt w.isLt⟩

/-- The shuffled array. -/
def shuffle {α : Type} (x : X.Idx → α) : X.Idx → α :=
  fun j => x (src (j 0) (j 1) (j 2) (j 3))

theorem shuffle_apply {α : Type} (x : X.Idx → α) (b : Fin 16) (c : Fin 512) (h : Fin 64) (w : Fin 64) :
    shuffle x (ix4 b c h w) = x (src b c h w) := rfl

end Cert.Shuffle
-- ==== Proof.KernelPieces.lean ====
/-
  The kernel body's pieces, each read at an index.

  The body re-lays a [256, 4096] tile (channel, position in the 64 x 64 image) as [256, 16, 256]
  (channel, block number, position in the 16 x 16 block), rotates the block axis of each group of sixteen
  channels, joins the sixteen groups, and re-lays the result back. Here: the first relayout read at an index, and
  one channel group's rotation read at an index — the result's block `k` of group `g` is the operand's block
  `(g + k) mod 16`.
-/
import proofs.«159428_j16930761081418_2_alg».proof.Proof.Gen.KernelIdeal.Skeleton
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.ValueIdx

/-- One channel group's rotation: the group is cut out of the [256, 16, 256] array at channel offset `o`, its blocks
    `g .. 15` are put first and its blocks `0 .. g - 1` after them. Read at `(c, k, p)` it is the array at channel
    `o + c`, block `(g + k) mod 16`, position `p`. -/
theorem rot_apply {α : Type} (o g m : Nat) (hm : m + g = 16) (ho : o + 16 ≤ 256)
    (v : (⟨3, ![256, 16, 256]⟩ : Shape).Idx → α)
    (hs : (⟨3, ![256, 16, 256]⟩ : Shape).Slices ![o, 0, 0] ⟨3, ![16, 16, 256]⟩)
    (h1 : (⟨3, ![16, 16, 256]⟩ : Shape).Slices ![0, g, 0] ⟨3, ![16, m, 256]⟩)
    (h2 : (⟨3, ![16, 16, 256]⟩ : Shape).Slices ![0, 0, 0] ⟨3, ![16, g, 256]⟩)
    (hc : Shape.Concatenates [(⟨3, ![16, m, 256]⟩ : Shape), ⟨3, ![16, g, 256]⟩] ⟨3, ![16, 16, 256]⟩ 1)
    (c : Fin 16) (k : Fin 16) (p : Fin 256) :
    concatenate (⟨3, ![16, 16, 256]⟩ : Shape) 1
        [⟨⟨3, ![16, m, 256]⟩, extractStridedSlice ⟨3, ![16, m, 256]⟩ ![0, g, 0]
            (extractStridedSlice ⟨3, ![16, 16, 256]⟩ ![o, 0, 0] v hs) h1⟩,
          ⟨⟨3, ![16, g, 256]⟩, extractStridedSlice ⟨3, ![16, g, 256]⟩ ![0, 0, 0]
            (extractStridedSlice ⟨3, ![16, 16, 256]⟩ ![o, 0, 0] v hs) h2⟩] hc (ix3 c k p)
      = v (ix3 (⟨o + c.val, by omega⟩ : Fin 256) (⟨(g + k.val) % 16, Nat.mod_lt _ (by omega)⟩ : Fin 16) p) := by
  by_cases hk : k.val < m
  · refine (concatenate_pair_apply_left (t := ⟨3, ![16, 16, 256]⟩) (s₁ := ⟨3, ![16, m, 256]⟩) (s₂ := ⟨3, ![16, g, 256]⟩)
      (1 : Fin 3) _ _ hc (ix3 c k p) (by rfl) (ix3 c (⟨k.val, hk⟩ : Fin m) p) (fun b => ?_)).trans ?_
    · match b with | ⟨0, _⟩ => rfl | ⟨1, _⟩ => rfl | ⟨2, _⟩ => rfl
    refine (extractStridedSlice_apply _ _ h1 _ (ix3 c (⟨g + k.val, by omega⟩ : Fin 16) p) (fun a => ?_)).trans ?_
    · match a with
      | ⟨0, _⟩ => show c.val = 0 + c.val; omega
      | ⟨1, _⟩ => show g + k.val = g + k.val; rfl
      | ⟨2, _⟩ => show p.val = 0 + p.val; omega
    refine (extractStridedSlice_apply _ _ hs _
      (ix3 (⟨o + c.val, by omega⟩ : Fin 256) (⟨(g + k.val) % 16, Nat.mod_lt _ (by omega)⟩ : Fin 16) p) (fun a => ?_))
    match a with
    | ⟨0, _⟩ => show o + c.val = o + c.val; rfl
    | ⟨1, _⟩ => show (g + k.val) % 16 = 0 + (g + k.val); omega
    | ⟨2, _⟩ => show p.val = 0 + p.val; omega
  · have hkm : m ≤ k.val := Nat.le_of_not_lt hk
    have hk16 : k.val < 16 := k.isLt
    refine (concatenate_pair_apply_right (t := ⟨3, ![16, 16, 256]⟩) (s₁ := ⟨3, ![16, m, 256]⟩) (s₂ := ⟨3, ![16, g, 256]⟩)
      (1 : Fin 3) _ _ hc (ix3 c k p) (by rfl) (by rfl) (ix3 c (⟨k.val - m, by omega⟩ : Fin g) p) (fun b hb => ?_) ?_).trans ?_
    · match b with
      | ⟨0, _⟩ => rfl
      | ⟨1, _⟩ => exact absurd rfl hb
      | ⟨2, _⟩ => rfl
    · show k.val - m + m = k.val; omega
    refine (extractStridedSlice_apply _ _ h2 _ (ix3 c (⟨k.val - m, by omega⟩ : Fin 16) p) (fun a => ?_)).trans ?_
    · match a with
      | ⟨0, _⟩ => show c.val = 0 + c.val; omega
      | ⟨1, _⟩ => show k.val - m = 0 + (k.val - m); omega
      | ⟨2, _⟩ => show p.val = 0 + p.val; omega
    refine (extractStridedSlice_apply _ _ hs _
      (ix3 (⟨o + c.val, by omega⟩ : Fin 256) (⟨(g + k.val) % 16, Nat.mod_lt _ (by omega)⟩ : Fin 16) p) (fun a => ?_))
    match a with
    | ⟨0, _⟩ => show o + c.val = o + c.val; rfl
    | ⟨1, _⟩ => show (g + k.val) % 16 = 0 + (k.val - m); omega
    | ⟨2, _⟩ => show p.val = 0 + p.val; omega

variable {F : FTy → Type} [FloatOps F]

/-- The first relayout read at an index: block `s` is at block row `s / 4` and block column `s mod 4`, position `p`
    of a block at row `p / 16` and column `p mod 16` inside it, so the entry is the tile's at row
    `s / 4 * 16 + p / 16` and column `s mod 4 * 16 + p mod 16` of the 64 x 64 image. -/
theorem blocks_apply (x0 : Vec F S1x256x4096 .f32) (C : Fin 256) (s : Fin 16) (p : Fin 256) :
    k0_pay2 x0 (ix3 C s p)
      = x0 (ix3 (0 : Fin 1) C
          (⟨((s.val / 4 * 16 + p.val / 16) * 4 + s.val % 4) * 16 + p.val % 16, by
            have := s.isLt; have := p.isLt; omega⟩ : Fin 4096)) := by
  have hs := s.isLt
  have hp := p.isLt
  have hC := C.isLt
  unfold k0_pay2
  refine (shapeCast_apply _ _ (ix3 C s p)
    (ix5 C (⟨s.val / 4, by omega⟩ : Fin 4) (⟨s.val % 4, by omega⟩ : Fin 4) (⟨p.val / 16, by omega⟩ : Fin 16)
      (⟨p.val % 16, by omega⟩ : Fin 16)) ?_).trans ?_
  · rw [Shape.rowMajor_val_five, Shape.rowMajor_val_three]
    show (((C.val * 4 + s.val / 4) * 4 + s.val % 4) * 16 + p.val / 16) * 16 + p.val % 16
      = (C.val * 16 + s.val) * 256 + p.val
    omega
  refine (transpose_apply _ _ _ _
    (ix5 C (⟨s.val / 4, by omega⟩ : Fin 4) (⟨p.val / 16, by omega⟩ : Fin 16) (⟨s.val % 4, by omega⟩ : Fin 4)
      (⟨p.val % 16, by omega⟩ : Fin 16)) (fun b => ?_)).trans ?_
  · match b with
    | ⟨0, _⟩ => rfl
    | ⟨1, _⟩ => rfl
    | ⟨2, _⟩ => rfl
    | ⟨3, _⟩ => rfl
    | ⟨4, _⟩ => rfl
  refine (shapeCast_apply _ _ _
    (ix2 C (⟨((s.val / 4 * 16 + p.val / 16) * 4 + s.val % 4) * 16 + p.val % 16, by omega⟩ : Fin 4096)) ?_).trans ?_
  · rw [Shape.rowMajor_val_two, Shape.rowMajor_val_five]
    show C.val * 4096 + (((s.val / 4 * 16 + p.val / 16) * 4 + s.val % 4) * 16 + p.val % 16)
      = (((C.val * 4 + s.val / 4) * 16 + p.val / 16) * 4 + s.val % 4) * 16 + p.val % 16
    omega
  refine shapeCast_apply _ _ _ _ ?_
  rw [Shape.rowMajor_val_three, Shape.rowMajor_val_two]
  show ((0 : Fin 1).val * 256 + C.val) * 4096 + (((s.val / 4 * 16 + p.val / 16) * 4 + s.val % 4) * 16 + p.val % 16)
    = C.val * 4096 + (((s.val / 4 * 16 + p.val / 16) * 4 + s.val % 4) * 16 + p.val % 16)
  simp

/-- Where block `k` of channel `c` of channel group `g` is read from after the rotation: channel `16 g + c`, block
    `(g + k) mod 16`. -/
abbrev rotIdx (g : Nat) (hg : g < 16) (c k : Fin 16) (p : Fin 256) : S256x16x256.Idx :=
  ix3 (⟨16 * g + c.val, by omega⟩ : Fin 256) (⟨(g + k.val) % 16, Nat.mod_lt _ (by omega)⟩ : Fin 16) p

/-- Group 0 is not rotated. -/
theorem pay3_apply (x0 : Vec F S1x256x4096 .f32) (c k : Fin 16) (p : Fin 256) :
    k0_pay3 x0 (ix3 c k p) = k0_pay2 x0 (rotIdx 0 (by omega) c k p) := by
  unfold k0_pay3
  refine extractStridedSlice_apply _ _ _ _ _ (fun a => ?_)
  have hk := k.isLt
  match a with
  | ⟨0, _⟩ => show 16 * 0 + c.val = 0 + c.val; omega
  | ⟨1, _⟩ => show (0 + k.val) % 16 = 0 + k.val; omega
  | ⟨2, _⟩ => show p.val = 0 + p.val; omega

/-! Groups 1 to 12: each is one payload of the body. -/

theorem pay4_apply (x0 : Vec F S1x256x4096 .f32) (c k : Fin 16) (p : Fin 256) :
    k0_pay4 x0 (ix3 c k p) = k0_pay2 x0 (rotIdx 1 (by omega) c k p) :=
  rot_apply 16 1 15 rfl (by omega) (k0_pay2 x0) slices_S256x16x256_o16_0_0_S16x16x256
    slices_S16x16x256_o0_1_0_S16x15x256 slices_S16x16x256_o0_0_0_S16x1x256
    concatenates_S16x15x256_S16x1x256_S16x16x256_d1 c k p

theorem pay5_apply (x0 : Vec F S1x256x4096 .f32) (c k : Fin 16) (p : Fin 256) :
    k0_pay5 x0 (ix3 c k p) = k0_pay2 x0 (rotIdx 2 (by omega) c k p) :=
  rot_apply 32 2 14 rfl (by omega) (k0_pay2 x0) slices_S256x16x256_o32_0_0_S16x16x256
    slices_S16x16x256_o0_2_0_S16x14x256 slices_S16x16x256_o0_0_0_S16x2x256
    concatenates_S16x14x256_S16x2x256_S16x16x256_d1 c k p

theorem pay6_apply (x0 : Vec F S1x256x4096 .f32) (c k : Fin 16) (p : Fin 256) :
    k0_pay6 x0 (ix3 c k p) = k0_pay2 x0 (rotIdx 3 (by omega) c k p) :=
  rot_apply 48 3 13 rfl (by omega) (k0_pay2 x0) slices_S256x16x256_o48_0_0_S16x16x256
    slices_S16x16x256_o0_3_0_S16x13x256 slices_S16x16x256_o0_0_0_S16x3x256
    concatenates_S16x13x256_S16x3x256_S16x16x256_d1 c k p

theorem pay7_apply (x0 : Vec F S1x256x4096 .f32) (c k : Fin 16) (p : Fin 256) :
    k0_pay7 x0 (ix3 c k p) = k0_pay2 x0 (rotIdx 4 (by omega) c k p) :=
  rot_apply 64 4 12 rfl (by omega) (k0_pay2 x0) slices_S256x16x256_o64_0_0_S16x16x256
    slices_S16x16x256_o0_4_0_S16x12x256 slices_S16x16x256_o0_0_0_S16x4x256
    concatenates_S16x12x256_S16x4x256_S16x16x256_d1 c k p

theorem pay8_apply (x0 : Vec F S1x256x4096 .f32) (c k : Fin 16) (p : Fin 256) :
    k0_pay8 x0 (ix3 c k p) = k0_pay2 x0 (rotIdx 5 (by omega) c k p) :=
  rot_apply 80 5 11 rfl (by omega) (k0_pay2 x0) slices_S256x16x256_o80_0_0_S16x16x256
    slices_S16x16x256_o0_5_0_S16x11x256 slices_S16x16x256_o0_0_0_S16x5x256
    concatenates_S16x11x256_S16x5x256_S16x16x256_d1 c k p

theorem pay9_apply (x0 : Vec F S1x256x4096 .f32) (c k : Fin 16) (p : Fin 256) :
    k0_pay9 x0 (ix3 c k p) = k0_pay2 x0 (rotIdx 6 (by omega) c k p) :=
  rot_apply 96 6 10 rfl (by omega) (k0_pay2 x0) slices_S256x16x256_o96_0_0_S16x16x256
    slices_S16x16x256_o0_6_0_S16x10x256 slices_S16x16x256_o0_0_0_S16x6x256
    concatenates_S16x10x256_S16x6x256_S16x16x256_d1 c k p

theorem pay10_apply (x0 : Vec F S1x256x4096 .f32) (c k : Fin 16) (p : Fin 256) :
    k0_pay10 x0 (ix3 c k p) = k0_pay2 x0 (rotIdx 7 (by omega) c k p) :=
  rot_apply 112 7 9 rfl (by omega) (k0_pay2 x0) slices_S256x16x256_o112_0_0_S16x16x256
    slices_S16x16x256_o0_7_0_S16x9x256 slices_S16x16x256_o0_0_0_S16x7x256
    concatenates_S16x9x256_S16x7x256_S16x16x256_d1 c k p

theorem pay11_apply (x0 : Vec F S1x256x4096 .f32) (c k : Fin 16) (p : Fin 256) :
    k0_pay11 x0 (ix3 c k p) = k0_pay2 x0 (rotIdx 8 (by omega) c k p) :=
  rot_apply 128 8 8 rfl (by omega) (k0_pay2 x0) slices_S256x16x256_o128_0_0_S16x16x256
    slices_S16x16x256_o0_8_0_S16x8x256 slices_S16x16x256_o0_0_0_S16x8x256
    concatenates_S16x8x256_S16x8x256_S16x16x256_d1 c k p

theorem pay12_apply (x0 : Vec F S1x256x4096 .f32) (c k : Fin 16) (p : Fin 256) :
    k0_pay12 x0 (ix3 c k p) = k0_pay2 x0 (rotIdx 9 (by omega) c k p) :=
  rot_apply 144 9 7 rfl (by omega) (k0_pay2 x0) slices_S256x16x256_o144_0_0_S16x16x256
    slices_S16x16x256_o0_9_0_S16x7x256 slices_S16x16x256_o0_0_0_S16x9x256
    concatenates_S16x7x256_S16x9x256_S16x16x256_d1 c k p

theorem pay13_apply (x0 : Vec F S1x256x4096 .f32) (c k : Fin 16) (p : Fin 256) :
    k0_pay13 x0 (ix3 c k p) = k0_pay2 x0 (rotIdx 10 (by omega) c k p) :=
  rot_apply 160 10 6 rfl (by omega) (k0_pay2 x0) slices_S256x16x256_o160_0_0_S16x16x256
    slices_S16x16x256_o0_10_0_S16x6x256 slices_S16x16x256_o0_0_0_S16x10x256
    concatenates_S16x6x256_S16x10x256_S16x16x256_d1 c k p

theorem pay14_apply (x0 : Vec F S1x256x4096 .f32) (c k : Fin 16) (p : Fin 256) :
    k0_pay14 x0 (ix3 c k p) = k0_pay2 x0 (rotIdx 11 (by omega) c k p) :=
  rot_apply 176 11 5 rfl (by omega) (k0_pay2 x0) slices_S256x16x256_o176_0_0_S16x16x256
    slices_S16x16x256_o0_11_0_S16x5x256 slices_S16x16x256_o0_0_0_S16x11x256
    concatenates_S16x5x256_S16x11x256_S16x16x256_d1 c k p

theorem pay15_apply (x0 : Vec F S1x256x4096 .f32) (c k : Fin 16) (p : Fin 256) :
    k0_pay15 x0 (ix3 c k p) = k0_pay2 x0 (rotIdx 12 (by omega) c k p) :=
  rot_apply 192 12 4 rfl (by omega) (k0_pay2 x0) slices_S256x16x256_o192_0_0_S16x16x256
    slices_S16x16x256_o0_12_0_S16x4x256 slices_S16x16x256_o0_0_0_S16x12x256
    concatenates_S16x4x256_S16x12x256_S16x16x256_d1 c k p

/-! Groups 13, 14 and 15 are spelt inside the body's last payload; here they are named. -/

/-- Group 13, rotated. -/
def grp13 (x0 : Vec F S1x256x4096 .f32) : FVec F S16x16x256 .f32 :=
  concatenate S16x16x256 1
    [⟨S16x3x256, k0_pay17 x0⟩,
      ⟨S16x13x256, extractStridedSlice S16x13x256 ![0, 0, 0] (k0_pay16 x0) slices_S16x16x256_o0_0_0_S16x13x256⟩]
    concatenates_S16x3x256_S16x13x256_S16x16x256_d1

/-- Group 14, rotated. -/
def grp14 (x0 : Vec F S1x256x4096 .f32) : FVec F S16x16x256 .f32 :=
  concatenate S16x16x256 1
    [⟨S16x2x256, extractStridedSlice S16x2x256 ![0, 14, 0]
        (extractStridedSlice S16x16x256 ![224, 0, 0] (k0_pay2 x0) slices_S256x16x256_o224_0_0_S16x16x256)
        slices_S16x16x256_o0_14_0_S16x2x256⟩,
      ⟨S16x14x256, extractStridedSlice S16x14x256 ![0, 0, 0]
        (extractStridedSlice S16x16x256 ![224, 0, 0] (k0_pay2 x0) slices_S256x16x256_o224_0_0_S16x16x256)
        slices_S16x16x256_o0_0_0_S16x14x256⟩]
    concatenates_S16x2x256_S16x14x256_S16x16x256_d1

/-- Group 15, rotated. -/
def grp15 (x0 : Vec F S1x256x4096 .f32) : FVec F S16x16x256 .f32 :=
  concatenate S16x16x256 1
    [⟨S16x1x256, extractStridedSlice S16x1x256 ![0, 15, 0]
        (extractStridedSlice S16x16x256 ![240, 0, 0] (k0_pay2 x0) slices_S256x16x256_o240_0_0_S16x16x256)
        slices_S16x16x256_o0_15_0_S16x1x256⟩,
      ⟨S16x15x256, extractStridedSlice S16x15x256 ![0, 0, 0]
        (extractStridedSlice S16x16x256 ![240, 0, 0] (k0_pay2 x0) slices_S256x16x256_o240_0_0_S16x16x256)
        slices_S16x16x256_o0_0_0_S16x15x256⟩]
    concatenates_S16x1x256_S16x15x256_S16x16x256_d1

theorem grp13_apply (x0 : Vec F S1x256x4096 .f32) (c k : Fin 16) (p : Fin 256) :
    grp13 x0 (ix3 c k p) = k0_pay2 x0 (rotIdx 13 (by omega) c k p) :=
  rot_apply 208 13 3 rfl (by omega) (k0_pay2 x0) slices_S256x16x256_o208_0_0_S16x16x256
    slices_S16x16x256_o0_13_0_S16x3x256 slices_S16x16x256_o0_0_0_S16x13x256
    concatenates_S16x3x256_S16x13x256_S16x16x256_d1 c k p

theorem grp14_apply (x0 : Vec F S1x256x4096 .f32) (c k : Fin 16) (p : Fin 256) :
    grp14 x0 (ix3 c k p) = k0_pay2 x0 (rotIdx 14 (by omega) c k p) :=
  rot_apply 224 14 2 rfl (by omega) (k0_pay2 x0) slices_S256x16x256_o224_0_0_S16x16x256
    slices_S16x16x256_o0_14_0_S16x2x256 slices_S16x16x256_o0_0_0_S16x14x256
    concatenates_S16x2x256_S16x14x256_S16x16x256_d1 c k p

theorem grp15_apply (x0 : Vec F S1x256x4096 .f32) (c k : Fin 16) (p : Fin 256) :
    grp15 x0 (ix3 c k p) = k0_pay2 x0 (rotIdx 15 (by omega) c k p) :=
  rot_apply 240 15 1 rfl (by omega) (k0_pay2 x0) slices_S256x16x256_o240_0_0_S16x16x256
    slices_S16x16x256_o0_15_0_S16x1x256 slices_S16x16x256_o0_0_0_S16x15x256
    concatenates_S16x1x256_S16x15x256_S16x16x256_d1 c k p

/-- The sixteen rotated groups, by group number. -/
def grp (x0 : Vec F S1x256x4096 .f32) : Fin 16 → (S16x16x256.Idx → Elt F .f32)
  | ⟨0, _⟩ => k0_pay3 x0
  | ⟨1, _⟩ => k0_pay4 x0
  | ⟨2, _⟩ => k0_pay5 x0
  | ⟨3, _⟩ => k0_pay6 x0
  | ⟨4, _⟩ => k0_pay7 x0
  | ⟨5, _⟩ => k0_pay8 x0
  | ⟨6, _⟩ => k0_pay9 x0
  | ⟨7, _⟩ => k0_pay10 x0
  | ⟨8, _⟩ => k0_pay11 x0
  | ⟨9, _⟩ => k0_pay12 x0
  | ⟨10, _⟩ => k0_pay13 x0
  | ⟨11, _⟩ => k0_pay14 x0
  | ⟨12, _⟩ => k0_pay15 x0
  | ⟨13, _⟩ => grp13 x0
  | ⟨14, _⟩ => grp14 x0
  | ⟨15, _⟩ => grp15 x0
  | ⟨_ + 16, h⟩ => absurd h (Nat.not_lt.2 (Nat.le_add_left _ _))

/-- Every group, read at an index: channel `16 g + c`, block `(g + k) mod 16` of the re-laid tile. -/
theorem grp_apply (x0 : Vec F S1x256x4096 .f32) (g : Fin 16) (c k : Fin 16) (p : Fin 256) :
    grp x0 g (ix3 c k p) = k0_pay2 x0 (rotIdx g.val g.isLt c k p) :=
  match g with
  | ⟨0, _⟩ => pay3_apply x0 c k p
  | ⟨1, _⟩ => pay4_apply x0 c k p
  | ⟨2, _⟩ => pay5_apply x0 c k p
  | ⟨3, _⟩ => pay6_apply x0 c k p
  | ⟨4, _⟩ => pay7_apply x0 c k p
  | ⟨5, _⟩ => pay8_apply x0 c k p
  | ⟨6, _⟩ => pay9_apply x0 c k p
  | ⟨7, _⟩ => pay10_apply x0 c k p
  | ⟨8, _⟩ => pay11_apply x0 c k p
  | ⟨9, _⟩ => pay12_apply x0 c k p
  | ⟨10, _⟩ => pay13_apply x0 c k p
  | ⟨11, _⟩ => pay14_apply x0 c k p
  | ⟨12, _⟩ => pay15_apply x0 c k p
  | ⟨13, _⟩ => grp13_apply x0 c k p
  | ⟨14, _⟩ => grp14_apply x0 c k p
  | ⟨15, _⟩ => grp15_apply x0 c k p
  | ⟨_ + 16, h⟩ => absurd h (Nat.not_lt.2 (Nat.le_add_left _ _))

end Cert.KernelIdeal.KValue

end
-- ==== Proof.KernelBody.lean ====
/-
  What the kernel body stores, read at an index.

  The body's result tile at channel `C` (0 .. 255, a channel of the shifted half) and position `P = 64 h + w` of
  the 64 x 64 image is the input tile at the same channel and at the position whose block number is rotated by the
  channel's group: block `(C / 16 + 4 (h / 16) + w / 16) mod 16`, the place inside the block unchanged.
-/
import proofs.«159428_j16930761081418_2_alg».proof.Proof.KernelPieces
import proofs.«159428_j16930761081418_2_alg».proof.Proof.Gen.KernelIdeal.Frame
import proofs.«159428_j16930761081418_2_alg».proof.Proof.Shuffle

noncomputable section

namespace Cert.KernelIdeal.KValue

open Cert.KernelIdeal Cert.KernelIdeal.Gen Idealize.ShloMosaic Idealize.ShloMosaic.ValueIdx

variable {F : FTy → Type} [FloatOps F]

/-- The position in the image the result's position `P` of channel `256 + C` is read from. -/
def srcPos (C P : Nat) : Nat :=
  (Cert.Shuffle.srcBlock (256 + C) (P / 64) (P % 64) / 4 * 16 + P / 64 % 16) * 64
    + (Cert.Shuffle.srcBlock (256 + C) (P / 64) (P % 64) % 4 * 16 + P % 64 % 16)

theorem srcPos_lt {C P : Nat} (hP : P < 4096) : srcPos C P < 4096 := by
  unfold srcPos Cert.Shuffle.srcBlock; omega

/-- The body's last payload — the sixteen groups joined along the channels and re-laid back as a
    [1, 256, 4096] block — read at an index. -/
theorem pay1_apply (x0 : Vec F S1x256x4096 .f32) (C : Fin 256) (P : Fin 4096) :
    k0_pay1 (k0_pay2 x0) (k0_pay3 x0) (k0_pay4 x0) (k0_pay5 x0) (k0_pay6 x0) (k0_pay7 x0) (k0_pay8 x0) (k0_pay9 x0)
        (k0_pay10 x0) (k0_pay11 x0) (k0_pay12 x0) (k0_pay13 x0) (k0_pay14 x0) (k0_pay15 x0) (k0_pay16 x0) (k0_pay17 x0)
        (ix3 (0 : Fin 1) C P)
      = x0 (ix3 (0 : Fin 1) C (⟨srcPos C.val P.val, srcPos_lt P.isLt⟩ : Fin 4096)) := by
  have hP := P.isLt
  have hC := C.isLt
  unfold k0_pay1
  -- [1, 256, 4096] from [256, 4096]
  refine (shapeCast_apply _ _ (ix3 (0 : Fin 1) C P) (ix2 C P) ?_).trans ?_
  · rw [Shape.rowMajor_val_two, Shape.rowMajor_val_three]
    show C.val * 4096 + P.val = ((0 : Fin 1).val * 256 + C.val) * 4096 + P.val
    simp
  -- [256, 4096] from [256, 4, 16, 4, 16]: block row, row in block, block column, column in block
  refine (shapeCast_apply _ _ (ix2 C P)
    (ix5 C (⟨P.val / 1024, by omega⟩ : Fin 4) (⟨P.val / 64 % 16, by omega⟩ : Fin 16)
      (⟨P.val / 16 % 4, by omega⟩ : Fin 4) (⟨P.val % 16, by omega⟩ : Fin 16)) ?_).trans ?_
  · rw [Shape.rowMajor_val_five, Shape.rowMajor_val_two]
    show (((C.val * 4 + P.val / 1024) * 16 + P.val / 64 % 16) * 4 + P.val / 16 % 4) * 16 + P.val % 16
      = C.val * 4096 + P.val
    omega
  -- the transpose back
  refine (transpose_apply _ _ _ _
    (ix5 C (⟨P.val / 1024, by omega⟩ : Fin 4) (⟨P.val / 16 % 4, by omega⟩ : Fin 4)
      (⟨P.val / 64 % 16, by omega⟩ : Fin 16) (⟨P.val % 16, by omega⟩ : Fin 16)) (fun b => ?_)).trans ?_
  · match b with
    | ⟨0, _⟩ => rfl
    | ⟨1, _⟩ => rfl
    | ⟨2, _⟩ => rfl
    | ⟨3, _⟩ => rfl
    | ⟨4, _⟩ => rfl
  -- [256, 4, 4, 16, 16] from [256, 16, 256]: block number, position in block
  refine (shapeCast_apply _ _ _
    (ix3 C (⟨P.val / 1024 * 4 + P.val / 16 % 4, by omega⟩ : Fin 16)
      (⟨P.val / 64 % 16 * 16 + P.val % 16, by omega⟩ : Fin 256)) ?_).trans ?_
  · rw [Shape.rowMajor_val_three, Shape.rowMajor_val_five]
    show (C.val * 16 + (P.val / 1024 * 4 + P.val / 16 % 4)) * 256 + (P.val / 64 % 16 * 16 + P.val % 16)
      = (((C.val * 4 + P.val / 1024) * 4 + P.val / 16 % 4) * 16 + P.val / 64 % 16) * 16 + P.val % 16
    omega
  -- the sixteen groups joined along the channels: channel C is channel C mod 16 of group C / 16
  show concatenate S256x16x256 0
      (List.ofFn fun g : Fin 16 => (⟨S16x16x256, grp x0 g⟩ : (s : Shape) × (s.Idx → Elt F .f32))) _
      (ix3 C (⟨P.val / 1024 * 4 + P.val / 16 % 4, by omega⟩ : Fin 16)
        (⟨P.val / 64 % 16 * 16 + P.val % 16, by omega⟩ : Fin 256)) = _
  refine (concatenate_ofFn_apply (t := S256x16x256) (s₁ := S16x16x256) (0 : Fin 3) (grp x0) _ (by rfl) 16 (by rfl)
    _ (⟨C.val / 16, by omega⟩ : Fin 16) (by rfl)
    (ix3 (⟨C.val % 16, by omega⟩ : Fin 16) (⟨P.val / 1024 * 4 + P.val / 16 % 4, by omega⟩ : Fin 16)
      (⟨P.val / 64 % 16 * 16 + P.val % 16, by omega⟩ : Fin 256)) (by rfl) (fun b hb => ?_)).trans ?_
  · match b with
    | ⟨0, _⟩ => exact absurd rfl hb
    | ⟨1, _⟩ => rfl
    | ⟨2, _⟩ => rfl
  -- the group's rotation, then the first relayout
  refine (grp_apply x0 _ _ _ _).trans ?_
  refine (blocks_apply x0 _ _ _).trans ?_
  refine congrArg x0 (funext fun a => ?_)
  match a with
  | ⟨0, _⟩ => rfl
  | ⟨1, _⟩ => exact Fin.ext (by show 16 * (C.val / 16) + C.val % 16 = C.val; omega)
  | ⟨2, _⟩ =>
    refine Fin.ext ?_
    show (((C.val / 16 + (P.val / 1024 * 4 + P.val / 16 % 4)) % 16 / 4 * 16 + (P.val / 64 % 16 * 16 + P.val % 16) / 16) * 4
        + (C.val / 16 + (P.val / 1024 * 4 + P.val / 16 % 4)) % 16 % 4) * 16 + (P.val / 64 % 16 * 16 + P.val % 16) % 16
      = srcPos C.val P.val
    unfold srcPos Cert.Shuffle.srcBlock
    omega

theorem hz : (![0, 0, 0] : Fin 3 → Nat) = fun _ => 0 := funext fun a => by fin_cases a <;> rfl

/-- What the body leaves in the output window's buffer, read at an index. -/
theorem out_apply (x0 : Vec F S1x256x4096 .f32) (C : Fin 256) (P : Fin 4096) :
    out0_1 x0 (ix3 (0 : Fin 1) C P)
      = x0 (ix3 (0 : Fin 1) C (⟨srcPos C.val P.val, srcPos_lt P.isLt⟩ : Fin 4096)) := by
  unfold out0_1
  rw [View.canon_unit_zero hz]
  simp only [View.ld_unit_zero (S := S1x256x4096) hz]
  exact pay1_apply x0 C P

end Cert.KernelIdeal.KValue

end
-- ==== Proof.KernelArray.lean ====
/-
  The flattened array after the region.

  The program flattens each 64 x 64 image to 4096 positions, copies the flattened array, and runs the region on the
  copy: at batch item `t` it reads block `(t, 1, 0)` — channels 256 .. 511 of item `t` — and writes the body's
  result back to the same block of the copy. So after the region the copy holds, at channels 256 .. 511, the flattened
  argument read at the rotated position, and at channels 0 .. 255 what it held before: the flattened argument.
-/
import proofs.«159428_j16930761081418_2_alg».proof.Proof.KernelBody
import Idealize.ShloMosaic.Lib.StableHlo.Run
import Idealize.ShloMosaic.Lib.Pipeline.Value

noncomputable section

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ)

/-- The argument with each image flattened to 4096 positions. -/
def flat (c : Dev nD) : S16x512x4096.Idx → Elt F .f32 :=
  shapeCast S16x512x4096 (m ((c : Thread nD τ).loc main_arg0)) shapeCasts_S16x512x64x64_S16x512x4096

/-- The region finds the flattened argument in the array its input window reads, -/
theorem V_flat (c : Dev nD) : (V m c main_call0_v0 : S16x512x4096.Idx → Elt F .f32) = flat m c := by
  show StableHlo.after hostOps0 (fun b => m (c, b)) (Proc.devRef .tc main_call0_v0) = _
  after_results
  rfl

/-- and in the copy its output window writes. -/
theorem V_copy (c : Dev nD) : (V m c main_call0_v1 : S16x512x4096.Idx → Elt F .f32) = flat m c := by
  show StableHlo.after hostOps0 (fun b => m (c, b)) (Proc.devRef .tc main_call0_v1) = _
  after_results
  rfl

/-- Both windows' block at batch item `t` is block `(t, 1, 0)`. -/
theorem idx_facts : ∀ t : Fin cfg0.N,
    win0_0.index t (0 : Fin 3) = t.val ∧ win0_0.index t (1 : Fin 3) = 1 ∧ win0_0.index t (2 : Fin 3) = 0
    ∧ win0_1.index t (0 : Fin 3) = t.val ∧ win0_1.index t (1 : Fin 3) = 1 ∧ win0_1.index t (2 : Fin 3) = 0 :=
  (by decide +kernel : ∀ t : Fin grid0.N, _)

/-- What the copy holds after the region at the channels the region writes: the flattened argument at the rotated
    position of the same item and channel. -/
def rotated (c : Dev nD) : S16x512x4096.Idx → Elt F .f32 := fun i =>
  flat m c (ix3 (i 0 : Fin 16) (i 1 : Fin 512)
    (⟨srcPos ((i 1 : Fin 512).val - 256) (i 2 : Fin 4096).val, srcPos_lt (i 2 : Fin 4096).isLt⟩ : Fin 4096))

/-- What batch item `t` writes back is its block of `rotated`. -/
theorem flushed_eq (c : Dev nD) (t : Fin cfg0.N) :
    (dats m 0 c).flushed 1 t = ((cfg0.win 1).blk t).view.read (Elt F) (rotated m c) := by
  show (cfg0.win 1).cut (grid0.coords t) ((dats m 0 c).after 1 t) = _
  rw [after0_1]
  obtain ⟨e0, e1, e2, e3, e4, e5⟩ := idx_facts t
  refine funext fun (y : S1x256x4096.Idx) => ?_
  obtain ⟨u, C, P, rfl⟩ : ∃ (u : Fin 1) (C : Fin 256) (P : Fin 4096), y = ix3 u C P := ⟨y 0, y 1, y 2, eq_ix3 y⟩
  obtain rfl : u = 0 := Subsingleton.elim _ _
  refine (out_apply (iblk m c 0 t) C P).trans ?_
  show V m c main_call0_v0 (((cfg0.win 0).blk t).view.emb
      (ix3 (0 : Fin 1) C (⟨srcPos C.val P.val, srcPos_lt P.isLt⟩ : Fin 4096)))
    = rotated m c (((cfg0.win 1).blk t).view.emb (ix3 (0 : Fin 1) C P))
  rw [V_flat]
  unfold rotated
  refine congrArg (flat m c) (funext fun a => Fin.ext ?_)
  match a with
  | ⟨0, _⟩ =>
    show win0_0.index t (0 : Fin 3) * 1 + 1 * (0 : Fin 1).val = win0_1.index t (0 : Fin 3) * 1 + 1 * (0 : Fin 1).val
    omega
  | ⟨1, _⟩ =>
    show win0_0.index t (1 : Fin 3) * 256 + 1 * C.val = win0_1.index t (1 : Fin 3) * 256 + 1 * C.val
    omega
  | ⟨2, _⟩ =>
    show win0_0.index t (2 : Fin 3) * 4096 + 1 * srcPos C.val P.val
      = srcPos (win0_1.index t (1 : Fin 3) * 256 + 1 * C.val - 256) (win0_1.index t (2 : Fin 3) * 4096 + 1 * P.val)
    rw [e2, e4, e5]
    simp

/-- An index of the copy is in item `t`'s block iff each coordinate is in the block's range on its axis. -/
theorem mem_blk (t : Fin cfg0.N) (i : S16x512x4096.Idx) :
    i ∈ ((cfg0.win 1).blk t).view.set ↔ ∀ a : Fin 3, win0_1.index t a * S1x256x4096.size a ≤ (i a).val
      ∧ (i a).val < win0_1.index t a * S1x256x4096.size a + S1x256x4096.size a := by
  show i ∈ ((View.whole main_call0_v1).slice (win0_1.rect t)).set ↔ _
  rw [View.set_slice_whole, Rect.mem_set_unit]
  exact Iff.rfl

/-- The blocks the region writes cover exactly the channels 256 .. 511: item `i 0`'s block holds the index. -/
theorem covered_iff (i : S16x512x4096.Idx) :
    (∃ t : Fin cfg0.N, (cfg0.win 1).flush t = true ∧ i ∈ ((cfg0.win 1).blk t).view.set) ↔ 256 ≤ (i 1).val := by
  have hi0 : (i 0).val < 16 := (i 0).isLt
  have hi1 : (i 1).val < 512 := (i 1).isLt
  have hi2 : (i 2).val < 4096 := (i 2).isLt
  constructor
  · rintro ⟨t, -, hi⟩
    rw [mem_blk] at hi
    have b1 : win0_1.index t (1 : Fin 3) * 256 ≤ (i 1).val ∧ (i 1).val < win0_1.index t (1 : Fin 3) * 256 + 256 := hi 1
    obtain ⟨e0, e1, e2, e3, e4, e5⟩ := idx_facts t
    omega
  · intro h
    obtain ⟨t, ht⟩ : ∃ t : Fin cfg0.N, t.val = (i 0).val :=
      ⟨⟨(i 0).val, by show (i 0).val < grid0.N; rw [N_0]; exact hi0⟩, rfl⟩
    obtain ⟨e0, e1, e2, e3, e4, e5⟩ := idx_facts t
    refine ⟨t, flush0_1 t, ?_⟩
    rw [mem_blk]
    intro a
    match a with
    | ⟨0, _⟩ =>
      show win0_1.index t (0 : Fin 3) * 1 ≤ (i 0).val ∧ (i 0).val < win0_1.index t (0 : Fin 3) * 1 + 1
      omega
    | ⟨1, _⟩ =>
      show win0_1.index t (1 : Fin 3) * 256 ≤ (i 1).val ∧ (i 1).val < win0_1.index t (1 : Fin 3) * 256 + 256
      omega
    | ⟨2, _⟩ =>
      show win0_1.index t (2 : Fin 3) * 4096 ≤ (i 2).val ∧ (i 2).val < win0_1.index t (2 : Fin 3) * 4096 + 4096
      omega

/-- The copy after the region: rotated at channels 256 .. 511, the flattened argument below. -/
theorem final (c : Dev nD) :
    (dats m 0 c).arrAt 1 cfg0.N = fun i => if 256 ≤ (i 1).val then rotated m c i else flat m c i := by
  funext i
  rw [(dats m 0 c).arrAt_eq_piecewise 1 _ (fun t _ => flushed_eq m c t) i, A_eq]
  exact if_congr (covered_iff i) rfl (congrFun (V_copy m c) i)

end Cert.KernelIdeal.KValue

end
-- ==== Proof.KernelValue.lean ====
/-
  The kernel program's result is the shuffled argument.

  After the region the program reshapes the copy back to [16, 512, 64, 64]. Position `64 h + w` of the flattened
  image is row `h`, column `w`, and the rotated position of `64 h + w` is `64 * srcRow + srcCol`: so the result
  at `(b, c, h, w)` is the argument at `(b, c, srcRow c h w, srcCol c h w)`, which is the shuffle.
-/
import proofs.«159428_j16930761081418_2_alg».proof.Defs
import proofs.«159428_j16930761081418_2_alg».proof.Proof.Gen.KernelIdeal.Frame
import proofs.«159428_j16930761081418_2_alg».proof.Proof.Shuffle
import proofs.«159428_j16930761081418_2_alg».proof.Proof.KernelArray

noncomputable section

namespace Cert.KernelIdeal.KValue

open Cert.KernelIdeal Cert.KernelIdeal.Gen Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The line after the region reshapes the copy as the region left it. -/
theorem tail_eq (c : Dev nD) :
    Pipeline.afterTail₀ cfgs (dats m) 0 (V0 m) [hostOps1] c main_v0
      = shapeCast S16x512x64x64 ((dats m 0 c).arrAt 1 cfg0.N) shapeCasts_S16x512x4096_S16x512x64x64 := by
  unfold Pipeline.afterTail₀
  show StableHlo.after hostOps1 _ (Proc.devRef .tc main_v0) = _
  after_results
  exact congrArg (fun z => shapeCast S16x512x64x64 z shapeCasts_S16x512x4096_S16x512x64x64)
    (Pipeline.withArrays_arr spec0 launch0.win.arr_inj c _ _ 1)

/-- The copy after the region, reshaped back, is the shuffle of the argument. -/
theorem reshaped_eq (c : Dev nD) :
    shapeCast S16x512x64x64 (fun i : S16x512x4096.Idx => if 256 ≤ (i 1).val then rotated m c i else flat m c i)
        shapeCasts_S16x512x4096_S16x512x64x64
      = Cert.Shuffle.shuffle (m ((c : Thread nD τ).loc main_arg0)) := by
  funext j
  obtain ⟨b, ch, h, w, rfl⟩ : ∃ (b : Fin 16) (ch : Fin 512) (h : Fin 64) (w : Fin 64), j = ix4 b ch h w :=
    ⟨j 0, j 1, j 2, j 3, eq_ix4 j⟩
  have hb := b.isLt
  have hch := ch.isLt
  have hh := h.isLt
  have hw := w.isLt
  rw [Cert.Shuffle.shuffle_apply]
  refine (shapeCast_apply _ _ (ix4 b ch h w) (ix3 b ch (⟨64 * h.val + w.val, by omega⟩ : Fin 4096)) ?_).trans ?_
  · rw [Shape.rowMajor_val_three, Shape.rowMajor_val_four]
    show (b.val * 512 + ch.val) * 4096 + (64 * h.val + w.val) = ((b.val * 512 + ch.val) * 64 + h.val) * 64 + w.val
    omega
  show (if 256 ≤ ch.val then rotated m c (ix3 b ch (⟨64 * h.val + w.val, by omega⟩ : Fin 4096))
    else flat m c (ix3 b ch (⟨64 * h.val + w.val, by omega⟩ : Fin 4096))) = _
  by_cases hc : 256 ≤ ch.val
  · rw [if_pos hc]
    unfold rotated flat
    refine shapeCast_apply _ _ _ _ ?_
    show (S16x512x64x64.rowMajor (Cert.Shuffle.src b ch h w)).val
      = (S16x512x4096.rowMajor (ix3 b ch
          (⟨srcPos (ch.val - 256) (64 * h.val + w.val), srcPos_lt (by omega)⟩ : Fin 4096))).val
    rw [Shape.rowMajor_val_four, Shape.rowMajor_val_three]
    show ((b.val * 512 + ch.val) * 64 + Cert.Shuffle.srcRow ch.val h.val w.val) * 64 + Cert.Shuffle.srcCol ch.val h.val w.val
      = (b.val * 512 + ch.val) * 4096 + srcPos (ch.val - 256) (64 * h.val + w.val)
    unfold srcPos Cert.Shuffle.srcRow Cert.Shuffle.srcCol Cert.Shuffle.srcBlock
    rw [if_neg (by omega), if_neg (by omega)]
    omega
  · rw [if_neg hc]
    unfold flat
    refine shapeCast_apply _ _ _ _ ?_
    show (S16x512x64x64.rowMajor (Cert.Shuffle.src b ch h w)).val
      = (S16x512x4096.rowMajor (ix3 b ch (⟨64 * h.val + w.val, by omega⟩ : Fin 4096))).val
    rw [Shape.rowMajor_val_four, Shape.rowMajor_val_three]
    show ((b.val * 512 + ch.val) * 64 + Cert.Shuffle.srcRow ch.val h.val w.val) * 64 + Cert.Shuffle.srcCol ch.val h.val w.val
      = (b.val * 512 + ch.val) * 4096 + (64 * h.val + w.val)
    unfold Cert.Shuffle.srcRow Cert.Shuffle.srcCol
    rw [if_pos (by omega), if_pos (by omega)]
    omega

/-- Every weakly fair execution of the kernel program ends with its result at the shuffle of the argument, the
    argument unchanged. -/
theorem run_any (ρ : Dev nD → PrngReg) :
    θ_run (defs (F := F)) (onTc (τ := τ) (main (F := F))) ⟨m, fun _ => 0, ρ⟩ fun r => ∀ c : Dev nD,
      r.2.mem ((c.tc : Thread nD τ).loc main_v0) = Cert.Shuffle.shuffle (m ((c.tc : Thread nD τ).loc main_arg0))
      ∧ r.2.mem ((c.tc : Thread nD τ).loc main_arg0) = m ((c.tc : Thread nD τ).loc main_arg0) :=
  (θ_run defs _ _).mono (fun r h c =>
    ⟨((h c).2 main_v0 (Pipeline.mem_restRefs_of main_v0 (by decide) (by decide))).trans
        ((tail_eq m c).trans ((congrArg (fun z => shapeCast S16x512x64x64 z shapeCasts_S16x512x4096_S16x512x64x64)
          (final m c)).trans (reshaped_eq m c))),
      ((h c).2 main_arg0 (Pipeline.mem_restRefs_of main_arg0 (by decide) (by decide))).trans (W_main_arg0 m (dats m) c)⟩)
    (run_main m ρ)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = Cert.Shuffle.shuffle (m ((c.tc : Thread nD τ).loc main_arg0))
      ∧ r.2.mem ((c.tc : Thread nD τ).loc main_arg0) = m ((c.tc : Thread nD τ).loc main_arg0) :=
  run_any m ρ

end Cert.KernelIdeal.KValue

end
-- ==== Proof.RefRun.lean ====
/-
  The reference program's @main as a straight line of its 62 operations, the three outlined functions unfolded at
  their calls, and its run: every weakly fair execution terminates with each buffer at the fold of the
  operations over the launch contents.
-/
import proofs.«159428_j16930761081418_2_alg».proof.Defs
import proofs.«159428_j16930761081418_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: thirteen of @main's own (the two channel halves, the shifted
    half cut into blocks, the table of sums and the divisor), `remainder`'s twenty-one with `_where`'s select
    inside them, the table's reshape, `take_along_axis`'s twenty-three (the index normalised and bounded, the
    gather, the select against the fill), and @main's last four (the blocks put back, the concatenation). -/
abbrev ops : List (HloOp τ sig (Elt F)) :=
  [
    unary main_arg0 main_v0 ((extractStridedSlice S16x256x64x64 ![0, 0, 0, 0] · slices_S16x512x64x64_S16x256x64x64_0_0_0_0) : (⟨S16x512x64x64, .f32⟩ : BufTy).Contents (Elt F) → (⟨S16x256x64x64, .f32⟩ : BufTy).Contents (Elt F)),
    unary main_arg0 main_v1 ((extractStridedSlice S16x256x64x64 ![0, 256, 0, 0] · slices_S16x512x64x64_S16x256x64x64_0_256_0_0) : (⟨S16x512x64x64, .f32⟩ : BufTy).Contents (Elt F) → (⟨S16x256x64x64, .f32⟩ : BufTy).Contents (Elt F)),
    reshape main_v1 main_v2 rfl shapeCasts_S16x256x64x64_S16x16x16x4x16x4x16,
    unary main_v2 main_v3 ((transpose S16x16x16x16x16x4x4 [0, 1, 2, 4, 6, 3, 5] · transposes_S16x16x16x4x16x4x16_S16x16x16x16x16x4x4_0_1_2_4_6_3_5) : (⟨S16x16x16x4x16x4x16, .f32⟩ : BufTy).Contents (Elt F) → (⟨S16x16x16x16x16x4x4, .f32⟩ : BufTy).Contents (Elt F)),
    reshape main_v3 main_v4 rfl shapeCasts_S16x16x16x16x16x4x4_S16x16x16x16x16x16,
    nullary main_v5 (iotaInDim S16 32 0),
    unary main_v5 main_v6 (broadcastInDim S16x1 ![0] bcast_S16_S16x1_0 : (⟨S16, .i32⟩ : BufTy).Contents (Elt F) → (⟨S16x1, .i32⟩ : BufTy).Contents (Elt F)),
    nullary main_v7 (iotaInDim S16 32 0),
    unary main_v7 main_v8 (broadcastInDim S1x16 ![1] bcast_S16_S1x16_1 : (⟨S16, .i32⟩ : BufTy).Contents (Elt F) → (⟨S1x16, .i32⟩ : BufTy).Contents (Elt F)),
    unary main_v6 main_v9 (broadcastInDim S16x16 ![0, 1] bcast_S16x1_S16x16_0_1 : (⟨S16x1, .i32⟩ : BufTy).Contents (Elt F) → (⟨S16x16, .i32⟩ : BufTy).Contents (Elt F)),
    unary main_v8 main_v10 (broadcastInDim S16x16 ![0, 1] bcast_S1x16_S16x16_0_1 : (⟨S1x16, .i32⟩ : BufTy).Contents (Elt F) → (⟨S16x16, .i32⟩ : BufTy).Contents (Elt F)),
    binary main_v9 main_v10 main_v11 (addi : (⟨S16x16, .i32⟩ : BufTy).Contents (Elt F) → (⟨S16x16, .i32⟩ : BufTy).Contents (Elt F) → (⟨S16x16, .i32⟩ : BufTy).Contents (Elt F)),
    nullary main_c (constantI S_ 32 16#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S16x16 ![] bcast_S_S16x16),
    TRef.binary (.of main_v11) main_call0.v3 main_call0.v4 Host.remsi,
    TRef.nullary main_call0.c_1 (constantI S_ 32 0#32),
    TRef.unary main_call0.c_1 main_call0.v5 (broadcastInDim S16x16 ![] bcast_S_S16x16),
    TRef.binary main_call0.v4 main_call0.v5 main_call0.v6 (cmpi .ne),
    TRef.nullary main_call0.c_2 (constantI S_ 32 0#32),
    TRef.unary main_call0.c_2 main_call0.v7 (broadcastInDim S16x16 ![] bcast_S_S16x16),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S16x16 ![] bcast_S_S16x16),
    TRef.binary main_call0.v8 main_call0.v10 main_call0.v11 (cmpi .ne),
    TRef.binary main_call0.v11 main_call0.v6 main_call0.v12 andi,
    TRef.unary main_call0.call0.v0 main_call0.v13 (broadcastInDim S16x16 ![] bcast_S_S16x16),
    TRef.binary main_call0.v4 main_call0.v13 main_call0.v14 addi,
    TRef.ternary main_call0.v12 main_call0.v14 main_call0.v4 main_call0.v15 select,
    reshape main_v12 main_v13 rfl shapeCasts_S16x16_S1x16x1x1x1x16,
    TRef.nullary main_call1.c (constantI S_ 32 0#32),
    TRef.unary main_call1.c main_call1.v0 (broadcastInDim S1x16x1x1x1x16 ![] bcast_S_S1x16x1x1x1x16),
    TRef.binary (.of main_v13) main_call1.v0 main_call1.v1 (cmpi .slt),
    TRef.nullary main_call1.c_0 (constantI S_ 32 16#32),
    TRef.unary main_call1.c_0 main_call1.v2 (broadcastInDim S1x16x1x1x1x16 ![] bcast_S_S1x16x1x1x1x16),
    TRef.binary (.of main_v13) main_call1.v2 main_call1.v3 addi,
    TRef.ternary main_call1.v1 main_call1.v3 (.of main_v13) main_call1.v4 select,
    TRef.reshape main_call1.v4 main_call1.v5 rfl shapeCasts_S1x16x1x1x1x16_S16x16x1,
    TRef.nullary main_call1.c_1 (constantI S1 32 15#32),
    TRef.nullary main_call1.c_2 (constantI S_ 32 0#32),
    TRef.unary main_call1.c_2 main_call1.v6 (broadcastInDim S16x16x1 ![] bcast_S_S16x16x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S16x16x1 ![0, 1, 2] bcast_S1x1x1_S16x16x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16x16x1_S16x16_d2 h_S_),
    TRef.binary (.of main_v4) main_call1.v5 main_call1.v13 (fun x i => Host.gather gather_S16x16x16x16x16x16_S16x16x1_S16x16x16x16x16x16_0234_5_1_0_5_2_1611616161 x i),
    TRef.unary main_call1.v12 main_call1.v14 (broadcastInDim S16x16x16x16x16x16 ![1, 5] bcast_S16x16_S16x16x16x16x16x16_1_5),
    TRef.nullary main_call1.cst (constant S_ .f32 0x7FC00000#32),
    TRef.unary main_call1.cst main_call1.v15 (broadcastInDim S16x16x16x16x16x16 ![] bcast_S_S16x16x16x16x16x16),
    TRef.ternary main_call1.v14 main_call1.v13 main_call1.v15 main_call1.v16 select,
    reshape main_v14 main_v15 rfl shapeCasts_S16x16x16x16x16x16_S16x256x16x16x4x4,
    unary main_v15 main_v16 ((transpose S16x256x4x16x4x16 [0, 1, 4, 2, 5, 3] · transposes_S16x256x16x16x4x4_S16x256x4x16x4x16_0_1_4_2_5_3) : (⟨S16x256x16x16x4x4, .f32⟩ : BufTy).Contents (Elt F) → (⟨S16x256x4x16x4x16, .f32⟩ : BufTy).Contents (Elt F)),
    reshape main_v16 main_v17 rfl shapeCasts_S16x256x4x16x4x16_S16x256x64x64,
    binary main_v0 main_v17 main_v18 ((fun a b => concatenate S16x512x64x64 1 [⟨S16x256x64x64, a⟩, ⟨S16x256x64x64, b⟩] concatenates_S16x256x64x64_S16x256x64x64_S16x512x64x64_d1) : (⟨S16x256x64x64, .f32⟩ : BufTy).Contents (Elt F) → (⟨S16x256x64x64, .f32⟩ : BufTy).Contents (Elt F) → (⟨S16x512x64x64, .f32⟩ : BufTy).Contents (Elt F)) ]

-- sixty-two sequenced steps: re-associating the sequence recurses once per step
set_option maxRecDepth 4096 in
/-- @main is that straight line: the functions' definitions unfolded at their calls and the records at their
    fields, both sides are one chain of steps once sequencing is reassociated. -/
theorem main_eq (c : Dev nD) : main (F := F) c = seq ops := by
  simp only [main, fn_remainder.body, fn_where.body, fn_take_along_axis.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., reshape_bufs_sub .., unary_bufs_sub .., reshape_bufs_sub .., nullary_bufs_sub ..,
    unary_bufs_sub .., nullary_bufs_sub .., unary_bufs_sub .., unary_bufs_sub .., unary_bufs_sub .., binary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., reshape_bufs_sub .., nullary_bufs_sub ..,
    unary_bufs_sub .., binary_bufs_sub .., nullary_bufs_sub .., unary_bufs_sub .., binary_bufs_sub .., ternary_bufs_sub ..,
    reshape_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., reshape_bufs_sub .., unary_bufs_sub ..,
    reshape_bufs_sub .., binary_bufs_sub ..⟩

/-- On every device, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefDefs.lean ====
/-
  The reference program's result as one function of its argument, built from named intermediate arrays: the
  table of block numbers (an integer table not depending on the argument), the mask of in-range entries, the
  shifted half cut into blocks, the blocks gathered by the table, and the two halves concatenated.
-/
import proofs.«159428_j16930761081418_2_alg».proof.Defs
import proofs.«159428_j16930761081418_2_alg».proof.Proof.Gen.ReferenceIdeal

noncomputable section

namespace Cert.ReferenceIdeal.RefDefs

open Cert.ReferenceIdeal Cert.ReferenceIdeal.Gen Idealize.ShloMosaic

variable {F : FTy → Type} [FloatOps F]

/-- The table of sums: entry `(s, k)` is `s + k`. -/
def sumTable : IVec S16x16 32 :=
  addi (broadcastInDim S16x16 ![0, 1] bcast_S16x1_S16x16_0_1 (broadcastInDim S16x1 ![0] bcast_S16_S16x1_0 (iotaInDim S16 32 0)))
    (broadcastInDim S16x16 ![0, 1] bcast_S1x16_S16x16_0_1 (broadcastInDim S1x16 ![1] bcast_S16_S1x16_1 (iotaInDim S16 32 0)))

/-- The divisor as the remainder function takes it: `16`, replaced by `1` were it `0`. -/
def divisor : IVec S_ 32 :=
  select (cmpi .eq (id (constantI S_ 32 16#32)) (constantI S_ 32 0#32)) (constantI S_ 32 1#32) (id (constantI S_ 32 16#32))

/-- The truncated remainder of the sums by the divisor. -/
def rem0 : IVec S16x16 32 := Host.remsi sumTable (broadcastInDim S16x16 ![] bcast_S_S16x16 divisor)

/-- The table of block numbers: the remainder with the sign of the divisor (the truncated remainder, plus the
    divisor where it is not zero and its sign differs from the divisor's). -/
def idxTable : IVec S16x16 32 :=
  select
    (andi
      (cmpi .ne (cmpi .slt rem0 (broadcastInDim S16x16 ![] bcast_S_S16x16 (constantI S_ 32 0#32)))
        (broadcastInDim S16x16 ![] bcast_S_S16x16 (cmpi .slt divisor (constantI S_ 32 0#32))))
      (cmpi .ne rem0 (broadcastInDim S16x16 ![] bcast_S_S16x16 (constantI S_ 32 0#32))))
    (addi rem0 (broadcastInDim S16x16 ![] bcast_S_S16x16 divisor))
    rem0

/-- The table laid out along axes 1 and 5 of the blocked array. -/
def idx6 : IVec S1x16x1x1x1x16 32 := shapeCast S1x16x1x1x1x16 idxTable shapeCasts_S16x16_S1x16x1x1x1x16

/-- Negative entries counted from the end of the axis. -/
def idxNorm : IVec S1x16x1x1x1x16 32 :=
  select (cmpi .slt idx6 (broadcastInDim S1x16x1x1x1x16 ![] bcast_S_S1x16x1x1x1x16 (constantI S_ 32 0#32)))
    (addi idx6 (broadcastInDim S1x16x1x1x1x16 ![] bcast_S_S1x16x1x1x1x16 (constantI S_ 32 16#32)))
    idx6

/-- The start indices of the gather: one index vector of length one per (group, position) pair. -/
def idx3 : IVec S16x16x1 32 := shapeCast S16x16x1 idxNorm shapeCasts_S1x16x1x1x1x16_S16x16x1

/-- Which entries are inside the axis: between 0 and 15. -/
def mask2 : IVec S16x16 1 :=
  Host.reduce IntOp.andi
    (andi (cmpi .sge idx3 (broadcastInDim S16x16x1 ![] bcast_S_S16x16x1 (constantI S_ 32 0#32)))
      (cmpi .sle idx3 (broadcastInDim S16x16x1 ![0, 1, 2] bcast_S1x1x1_S16x16x1_0_1_2
        (broadcastInDim S1x1x1 ![2] bcast_S1_S1x1x1_2 (constantI S1 32 15#32)))))
    (constantI S_ 1 1#1) reducesTo_S16x16x1_S16x16_d2 h_S_

/-- The kept half: channels 0 .. 255. -/
def kept (x : S16x512x64x64.Idx → F .f32) : S16x256x64x64.Idx → F .f32 :=
  extractStridedSlice S16x256x64x64 ![0, 0, 0, 0] x slices_S16x512x64x64_S16x256x64x64_0_0_0_0

/-- The shifted half cut into blocks: index `(b, G, j, hh, ww, s)` is channel `256 + 16 G + j`, block `s`,
    position `(hh, ww)` inside the block. -/
def blocks (x : S16x512x64x64.Idx → F .f32) : S16x16x16x16x16x16.Idx → F .f32 :=
  shapeCast S16x16x16x16x16x16
    (transpose S16x16x16x16x16x4x4 [0, 1, 2, 4, 6, 3, 5]
      (shapeCast S16x16x16x4x16x4x16
        (extractStridedSlice S16x256x64x64 ![0, 256, 0, 0] x slices_S16x512x64x64_S16x256x64x64_0_256_0_0)
        shapeCasts_S16x256x64x64_S16x16x16x4x16x4x16)
      transposes_S16x16x16x4x16x4x16_S16x16x16x16x16x4x4_0_1_2_4_6_3_5)
    shapeCasts_S16x16x16x16x16x4x4_S16x16x16x16x16x16

/-- The blocks taken along the last axis by the table. -/
def gathered (x : S16x512x64x64.Idx → F .f32) : S16x16x16x16x16x16.Idx → F .f32 :=
  Host.gather gather_S16x16x16x16x16x16_S16x16x1_S16x16x16x16x16x16_0234_5_1_0_5_2_1611616161 (blocks x) idx3

/-- The gathered blocks where the table's entry is inside the axis, the fill elsewhere. -/
def taken (x : S16x512x64x64.Idx → F .f32) : S16x16x16x16x16x16.Idx → F .f32 :=
  select (broadcastInDim S16x16x16x16x16x16 ![1, 5] bcast_S16x16_S16x16x16x16x16x16_1_5 mask2) (gathered x)
    (broadcastInDim S16x16x16x16x16x16 ![] bcast_S_S16x16x16x16x16x16 (constant (F := F) S_ .f32 0x7FC00000#32))

/-- The shifted half put back as images. -/
def shifted (x : S16x512x64x64.Idx → F .f32) : S16x256x64x64.Idx → F .f32 :=
  shapeCast S16x256x64x64
    (transpose S16x256x4x16x4x16 [0, 1, 4, 2, 5, 3]
      (shapeCast S16x256x16x16x4x4 (taken x) shapeCasts_S16x16x16x16x16x16_S16x256x16x16x4x4)
      transposes_S16x256x16x16x4x4_S16x256x4x16x4x16_0_1_4_2_5_3)
    shapeCasts_S16x256x4x16x4x16_S16x256x64x64

/-- The reference's result: the kept half and the shifted half along the channel axis. -/
def refTerm (x : S16x512x64x64.Idx → F .f32) : S16x512x64x64.Idx → F .f32 :=
  concatenate S16x512x64x64 1 [⟨S16x256x64x64, kept x⟩, ⟨S16x256x64x64, shifted x⟩]
    concatenates_S16x256x64x64_S16x256x64x64_S16x512x64x64_d1

end Cert.ReferenceIdeal.RefDefs

end
-- ==== Proof.LibTypedRef.lean ====
/-
  A typed reference carries a buffer together with the fact that the buffer's type is a given one; contents are moved
  between the two spellings of that type along the fact. Moving there and back, in either order, changes nothing.
-/
import Idealize.ShloMosaic.Lib.StableHlo

namespace Cert.LibTypedRef

open Idealize.ShloMosaic Idealize.ShloMosaic.StableHlo

variable {sig : RefSig} {Val : EltTy → Type} {T : BufTy}

/-- Contents carried to the buffer's own type and back are unchanged. -/
theorem ofBuf_toBuf (x : TRef sig T) (v : T.Contents Val) : x.ofBuf (x.toBuf v) = v := by
  obtain ⟨r, rfl, _, _⟩ := x
  rfl

/-- Contents carried from the buffer's own type and back are unchanged. -/
theorem toBuf_ofBuf (x : TRef sig T) (v : x.ref.ty.Contents Val) : x.toBuf (x.ofBuf v) = v := by
  obtain ⟨r, rfl, _, _⟩ := x
  rfl

end Cert.LibTypedRef
-- ==== Proof.RefTerm.lean ====
/-
  The fold of the reference's operations read at its result buffer is the named function `refTerm` of the
  argument's launch contents; read at the argument's buffer it is the argument, which no operation writes.

  The line is cut before its last four operations (the blocks put back as images and the concatenation of the two
  channel halves). Before the cut, the kept half and the gathered blocks are each one composed term of the argument;
  an outlined function's buffers are typed references, whose carrying of contents to the buffer's own type and back
  changes nothing.
-/
import proofs.«159428_j16930761081418_2_alg».proof.Proof.RefRun
import proofs.«159428_j16930761081418_2_alg».proof.Proof.RefDefs
import proofs.«159428_j16930761081418_2_alg».proof.Proof.LibTypedRef

noncomputable section

namespace Cert.ReferenceIdeal.RefTerm

open Cert.ReferenceIdeal Cert.ReferenceIdeal.Gen Cert.ReferenceIdeal.RefRun Cert.ReferenceIdeal.RefDefs
open Idealize.ShloMosaic Idealize.ShloMosaic.TcCoe Idealize.SL.Sem Idealize.ShloMosaic.StableHlo

variable {F : FTy → Type} [FloatOps F]

/-- Operations run one stretch after another: the second stretch starts from what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The same, cutting a line after its first `n` operations. -/
theorem after_split (n : Nat) (l : List (HloOp τ sig (Elt F))) (V : Valuation τ sig (Elt F)) :
    after l V = after (l.drop n) (after (l.take n) V) := by
  rw [← after_append, List.take_append_drop]

/-- The blocks put back as images: [16, 16, 16, 16, 16, 16] (item, group, channel in group, row and column in the
    block, block number) re-laid as [16, 256, 64, 64]. -/
def putBack (y : S16x16x16x16x16x16.Idx → F .f32) : S16x256x64x64.Idx → F .f32 :=
  shapeCast S16x256x64x64
    (transpose S16x256x4x16x4x16 [0, 1, 4, 2, 5, 3]
      (shapeCast S16x256x16x16x4x4 y shapeCasts_S16x16x16x16x16x16_S16x256x16x16x4x4)
      transposes_S16x256x16x16x4x4_S16x256x4x16x4x16_0_1_4_2_5_3)
    shapeCasts_S16x256x4x16x4x16_S16x256x64x64

set_option maxRecDepth 16384 in
/-- The last four operations: the result is the kept half and the put-back blocks along the channel axis. -/
theorem last_four (W : Valuation τ sig (Elt F)) :
    after (ops.drop 58) W (main_v18 : DevRef τ sig)
      = concatenate S16x512x64x64 1
          [⟨S16x256x64x64, W (main_v0 : DevRef τ sig)⟩, ⟨S16x256x64x64, putBack (W (main_v14 : DevRef τ sig))⟩]
          concatenates_S16x256x64x64_S16x256x64x64_S16x512x64x64_d1 := by
  simp only [ops, List.drop_succ_cons, List.drop_zero]
  after_results
  rfl

set_option maxRecDepth 16384 in
set_option maxHeartbeats 400000 in
/-- Before the cut the kept half's buffer holds channels 0 .. 255 of the argument. -/
theorem head_kept (V : Valuation τ sig (Elt F)) :
    after (ops.take 58) V (main_v0 : DevRef τ sig) = kept (V (main_arg0 : DevRef τ sig)) := by
  simp only [ops, List.take_succ_cons, List.take_zero]
  after_results_simp
  rfl

attribute [local irreducible] Host.reduce Host.gather in
set_option maxRecDepth 16384 in
set_option maxHeartbeats 400000 in
/-- Before the cut the gathered blocks' buffer holds `taken` of the argument: the reduction and the gather are kept
    folded meanwhile, the equation never looks inside them. -/
theorem head_taken (V : Valuation τ sig (Elt F)) :
    after (ops.take 58) V (main_v14 : DevRef τ sig) = taken (V (main_arg0 : DevRef τ sig)) := by
  simp only [ops, List.take_succ_cons, List.take_zero]
  after_results_simp
  simp only [Cert.LibTypedRef.ofBuf_toBuf, Cert.LibTypedRef.toBuf_ofBuf]
  rfl

/-- The fold at the result buffer. -/
theorem v18_eq (V : Valuation τ sig (Elt F)) :
    after ops V (main_v18 : DevRef τ sig) = refTerm (V (main_arg0 : DevRef τ sig)) := by
  rw [after_split 58 ops V, last_four, head_kept, head_taken]
  rfl

set_option maxRecDepth 16384 in
set_option maxHeartbeats 400000 in
/-- No operation writes the argument's buffer. -/
theorem arg0_eq (V : Valuation τ sig (Elt F)) :
    after ops V (main_arg0 : DevRef τ sig) = V (main_arg0 : DevRef τ sig) := by
  after_results_simp

end Cert.ReferenceIdeal.RefTerm

end
-- ==== Proof.RefTable.lean ====
/-
  The integer table of block numbers, read at an index: entry `(G, k)` is `(G + k) mod 16`, a number between 0 and
  15, so the normalisation of negative entries changes nothing and every entry is inside the axis.
-/
import proofs.«159428_j16930761081418_2_alg».proof.Proof.RefDefs
import Idealize.ShloMosaic.Lib.Affine
import Idealize.ShloMosaic.Lib.ValueIdxRank6
import Idealize.ShloMosaic.Lib.ReduceAll
import Idealize.ShloMosaic.Lib.Pipeline.Value

noncomputable section

namespace Cert.ReferenceIdeal.RefTable

open Cert.ReferenceIdeal Cert.ReferenceIdeal.Gen Cert.ReferenceIdeal.RefDefs Idealize.ShloMosaic Idealize.ShloMosaic.ValueIdx

/-- The sum at `(G, k)`. -/
theorem sumTable_apply (G k : Fin 16) : sumTable (ix2 G k) = BitVec.ofNat 32 G.val + BitVec.ofNat 32 k.val := rfl

/-- The divisor is 16. -/
theorem divisor_apply (i : S_.Idx) : divisor i = 16#32 := rfl

/-- The truncated remainder at `(G, k)`: 16 is positive, so no corner of the division is met. -/
theorem rem0_apply (G k : Fin 16) :
    rem0 (ix2 G k) = (BitVec.ofNat 32 G.val + BitVec.ofNat 32 k.val).srem 16#32 := by
  show IntOp.remsi .host (sumTable (ix2 G k)) (divisor _) = _
  rw [divisor_apply, sumTable_apply]
  exact IntOp.remsi_of_pos .host (by decide)

/-- The sign fix-ups on the 256 sums: each is its remainder by 16. -/
theorem table_closed : ∀ G k : Fin 16,
    Scalar.select
        (IntOp.andi
          (IntOp.cmpi .ne (IntOp.cmpi .slt ((BitVec.ofNat 32 G.val + BitVec.ofNat 32 k.val).srem 16#32) 0#32)
            (IntOp.cmpi .slt 16#32 0#32))
          (IntOp.cmpi .ne ((BitVec.ofNat 32 G.val + BitVec.ofNat 32 k.val).srem 16#32) 0#32))
        (IntOp.addi ((BitVec.ofNat 32 G.val + BitVec.ofNat 32 k.val).srem 16#32) 16#32)
        ((BitVec.ofNat 32 G.val + BitVec.ofNat 32 k.val).srem 16#32)
      = BitVec.ofNat 32 ((G.val + k.val) % 16) := by
  decide

/-- The table at `(G, k)` is `(G + k) mod 16`. -/
theorem idxTable_apply (G k : Fin 16) : idxTable (ix2 G k) = BitVec.ofNat 32 ((G.val + k.val) % 16) := by
  show Scalar.select
      (IntOp.andi (IntOp.cmpi .ne (IntOp.cmpi .slt (rem0 (ix2 G k)) 0#32) (IntOp.cmpi .slt (divisor ix0) 0#32))
        (IntOp.cmpi .ne (rem0 (ix2 G k)) 0#32))
      (IntOp.addi (rem0 (ix2 G k)) (divisor ix0)) (rem0 (ix2 G k)) = _
  rw [rem0_apply, divisor_apply]
  exact table_closed G k

/-- The table laid out along axes 1 and 5, read at `(0, G, 0, 0, 0, k)`: the same row-major position as `(G, k)`. -/
theorem idx6_apply (G k : Fin 16) :
    idx6 (ix6 (0 : Fin 1) G (0 : Fin 1) (0 : Fin 1) (0 : Fin 1) k) = BitVec.ofNat 32 ((G.val + k.val) % 16) := by
  unfold idx6
  refine (shapeCast_apply _ _ _ (ix2 G k) (by
    rw [Shape.rowMajor_val_two, Shape.rowMajor_val_six]
    show G.val * 16 + k.val = ((((0 * 16 + G.val) * 1 + 0) * 1 + 0) * 1 + 0) * 16 + k.val
    omega)).trans (idxTable_apply G k)

/-- A number between 0 and 15 is not negative: counting it from the end of the axis is not taken. -/
theorem norm_closed : ∀ v : Fin 16,
    Scalar.select (IntOp.cmpi .slt (BitVec.ofNat 32 v.val) 0#32) (IntOp.addi (BitVec.ofNat 32 v.val) 16#32)
      (BitVec.ofNat 32 v.val) = BitVec.ofNat 32 v.val := by
  decide

/-- The normalised table is the table. -/
theorem idxNorm_apply (G k : Fin 16) :
    idxNorm (ix6 (0 : Fin 1) G (0 : Fin 1) (0 : Fin 1) (0 : Fin 1) k) = BitVec.ofNat 32 ((G.val + k.val) % 16) := by
  show Scalar.select (IntOp.cmpi .slt (idx6 (ix6 (0 : Fin 1) G (0 : Fin 1) (0 : Fin 1) (0 : Fin 1) k)) 0#32)
      (IntOp.addi (idx6 (ix6 (0 : Fin 1) G (0 : Fin 1) (0 : Fin 1) (0 : Fin 1) k)) 16#32)
      (idx6 (ix6 (0 : Fin 1) G (0 : Fin 1) (0 : Fin 1) (0 : Fin 1) k)) = _
  rw [idx6_apply]
  exact norm_closed ⟨(G.val + k.val) % 16, Nat.mod_lt _ (by decide)⟩

/-- The gather's start index for group `G` and position `k`: `(G + k) mod 16`. -/
theorem idx3_apply (G k : Fin 16) (z : Fin 1) : idx3 (ix3 G k z) = BitVec.ofNat 32 ((G.val + k.val) % 16) := by
  unfold idx3
  refine (shapeCast_apply _ _ _ (ix6 (0 : Fin 1) G (0 : Fin 1) (0 : Fin 1) (0 : Fin 1) k) (by
    rw [Shape.rowMajor_val_six, Shape.rowMajor_val_three]
    have hz : z.val < 1 := z.isLt
    show ((((0 * 16 + G.val) * 1 + 0) * 1 + 0) * 1 + 0) * 16 + k.val = (G.val * 16 + k.val) * 1 + z.val
    omega)).trans (idxNorm_apply G k)

/-- A number between 0 and 15 is inside the axis. -/
theorem inRange_closed : ∀ v : Fin 16,
    IntOp.andi (IntOp.cmpi .sge (BitVec.ofNat 32 v.val) 0#32) (IntOp.cmpi .sle (BitVec.ofNat 32 v.val) 15#32) = 1#1 := by
  decide

/-- Every start index is inside the axis. -/
theorem inRange_apply (i : S16x16x1.Idx) :
    andi (cmpi .sge idx3 (broadcastInDim S16x16x1 ![] bcast_S_S16x16x1 (constantI S_ 32 0#32)))
      (cmpi .sle idx3 (broadcastInDim S16x16x1 ![0, 1, 2] bcast_S1x1x1_S16x16x1_0_1_2
        (broadcastInDim S1x1x1 ![2] bcast_S1_S1x1x1_2 (constantI S1 32 15#32)))) i = 1#1 := by
  obtain ⟨G, k, z, rfl⟩ : ∃ (G k : Fin 16) (z : Fin 1), i = ix3 G k z := ⟨i 0, i 1, i 2, eq_ix3 i⟩
  show IntOp.andi (IntOp.cmpi .sge (idx3 (ix3 G k z)) 0#32) (IntOp.cmpi .sle (idx3 (ix3 G k z)) 15#32) = 1#1
  rw [idx3_apply]
  exact inRange_closed ⟨(G.val + k.val) % 16, Nat.mod_lt _ (by decide)⟩

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

/-- The mask is 1 everywhere. -/
theorem mask2_apply (j : S16x16.Idx) : mask2 j = 1#1 := by
  unfold mask2
  rw [Host.reduce_eq_foldl]
  exact foldl_andi_one _ inRange_apply _

end Cert.ReferenceIdeal.RefTable

end
-- ==== Proof.RefGather.lean ====
/-
  The gather read at an index: with the operand's axis 1 paired with the start indices' axis 0 and the last axis
  collapsed, result entry `(b, G, j, hh, ww, k)` is the operand at `(b, G, j, hh, ww, s)`, where `s` is the start
  index at `(G, k)` read signed and clamped into the axis.
-/
import proofs.«159428_j16930761081418_2_alg».proof.Proof.RefDefs
import Idealize.ShloMosaic.Lib.ValueIdxRank6

noncomputable section

namespace Cert.ReferenceIdeal.RefGather

open Cert.ReferenceIdeal Cert.ReferenceIdeal.Gen Cert.ReferenceIdeal.RefDefs Idealize.ShloMosaic Idealize.ShloMosaic.ValueIdx

/-- The gather's dimension numbers, by their short name here. -/
abbrev D : GatherDims S16x16x16x16x16x16 S16x16x1 S16x16x16x16x16x16 :=
  gather_S16x16x16x16x16x16_S16x16x1_S16x16x16x16x16x16_0234_5_1_0_5_2_1611616161

/-- Where result index `(b, G, j, hh, ww, k)` reads its start index: `(G, k, 0)`. -/
theorem siIdx_eq (b G jj hh ww k : Fin 16) (c : Fin D.startIndexMap.length) :
    D.siIdx (ix6 b G jj hh ww k) c = ix3 G k (0 : Fin 1) := by
  funext a
  refine Fin.ext ?_
  match a with
  | ⟨0, _⟩ => rfl
  | ⟨1, _⟩ => rfl
  | ⟨2, _⟩ =>
    have hl : D.startIndexMap.length = 1 := rfl
    have := c.isLt
    show c.val = 0
    omega

/-- The gather read at `(b, G, j, hh, ww, k)`. -/
theorem gather_apply {α : Type} (x : S16x16x16x16x16x16.Idx → α) (idx : IVec S16x16x1 32) (b G jj hh ww k : Fin 16) :
    Host.gather D x idx (ix6 b G jj hh ww k)
      = x (ix6 b G jj hh ww ⟨min (idx (ix3 G k (0 : Fin 1))).toInt.toNat 15, by omega⟩) := by
  unfold Host.gather
  congr 1
  funext a
  refine Fin.ext ?_
  match a with
  | ⟨0, _⟩ =>
    show D.start (ix6 b G jj hh ww k) idx 0 + D.batchCoord (ix6 b G jj hh ww k) 0 + D.offCoord (ix6 b G jj hh ww k) 0 = b.val
    rw [GatherDims.batchCoord_eq_zero _ _ _ (by decide)]
    unfold GatherDims.start GatherDims.offCoord
    rw [dif_neg (by decide), dif_pos (by decide)]
    simp only [Nat.zero_add]
    rfl
  | ⟨1, _⟩ =>
    show D.start (ix6 b G jj hh ww k) idx 1 + D.batchCoord (ix6 b G jj hh ww k) 1 + D.offCoord (ix6 b G jj hh ww k) 1 = G.val
    rw [GatherDims.start_batching _ _ _ _ (by decide), GatherDims.offCoord_eq_zero _ _ _ (by decide)]
    unfold GatherDims.batchCoord
    rw [dif_pos (by decide)]
    simp only [Nat.zero_add, Nat.add_zero]
    rfl
  | ⟨2, _⟩ =>
    show D.start (ix6 b G jj hh ww k) idx 2 + D.batchCoord (ix6 b G jj hh ww k) 2 + D.offCoord (ix6 b G jj hh ww k) 2 = jj.val
    rw [GatherDims.batchCoord_eq_zero _ _ _ (by decide)]
    unfold GatherDims.start GatherDims.offCoord
    rw [dif_neg (by decide), dif_pos (by decide)]
    simp only [Nat.zero_add]
    rfl
  | ⟨3, _⟩ =>
    show D.start (ix6 b G jj hh ww k) idx 3 + D.batchCoord (ix6 b G jj hh ww k) 3 + D.offCoord (ix6 b G jj hh ww k) 3 = hh.val
    rw [GatherDims.batchCoord_eq_zero _ _ _ (by decide)]
    unfold GatherDims.start GatherDims.offCoord
    rw [dif_neg (by decide), dif_pos (by decide)]
    simp only [Nat.zero_add]
    rfl
  | ⟨4, _⟩ =>
    show D.start (ix6 b G jj hh ww k) idx 4 + D.batchCoord (ix6 b G jj hh ww k) 4 + D.offCoord (ix6 b G jj hh ww k) 4 = ww.val
    rw [GatherDims.batchCoord_eq_zero _ _ _ (by decide)]
    unfold GatherDims.start GatherDims.offCoord
    rw [dif_neg (by decide), dif_pos (by decide)]
    simp only [Nat.zero_add]
    rfl
  | ⟨5, _⟩ =>
    show D.start (ix6 b G jj hh ww k) idx 5 + D.batchCoord (ix6 b G jj hh ww k) 5 + D.offCoord (ix6 b G jj hh ww k) 5 = _
    rw [GatherDims.batchCoord_eq_zero _ _ _ (by decide), GatherDims.offCoord_eq_zero _ _ _ (by decide)]
    simp only [Nat.add_zero]
    unfold GatherDims.start
    rw [dif_pos (show (5 : Fin 6) ∈ D.startIndexMap from by decide), siIdx_eq]
    rfl

end Cert.ReferenceIdeal.RefGather

end
-- ==== Proof.RefBlocks.lean ====
/-
  The two layout chains read at an index. Cutting into blocks: entry `(b, G, j, hh, ww, s)` of the blocked array is
  the argument at channel `256 + 16 G + j`, row `16 (s / 4) + hh`, column `16 (s mod 4) + ww`. Putting back: entry
  `(b, c, h, w)` of the images is the blocked array at group `c / 16`, member `c mod 16`, position
  `(h mod 16, w mod 16)`, block `4 (h / 16) + w / 16`.
-/
import proofs.«159428_j16930761081418_2_alg».proof.Proof.RefDefs
import Idealize.ShloMosaic.Lib.ValueIdxRank6
import Idealize.ShloMosaic.Lib.Pipeline.Value

noncomputable section

namespace Cert.ReferenceIdeal.RefBlocks

open Cert.ReferenceIdeal Cert.ReferenceIdeal.Gen Cert.ReferenceIdeal.RefDefs Idealize.ShloMosaic Idealize.ShloMosaic.ValueIdx

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
        + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun h => match h with | ⟨0, _⟩ => a | ⟨1, _⟩ => b | ⟨2, _⟩ => c | ⟨3, _⟩ => d | ⟨4, _⟩ => e | ⟨5, _⟩ => f | ⟨6, _⟩ => g

variable {F : FTy → Type} [FloatOps F]

/-- The blocked array at `(b, G, j, hh, ww, s)`. -/
theorem blocks_apply (x : S16x512x64x64.Idx → F .f32) (b G jj hh ww s : Fin 16) :
    blocks x (ix6 b G jj hh ww s)
      = x (ix4 b (⟨256 + 16 * G.val + jj.val, by omega⟩ : Fin 512) (⟨16 * (s.val / 4) + hh.val, by omega⟩ : Fin 64)
          (⟨16 * (s.val % 4) + ww.val, by omega⟩ : Fin 64)) := by
  unfold blocks
  -- the last two axes split: position s is (s / 4, s mod 4)
  refine (shapeCast_apply _ _ _
    (ix7 b G jj hh ww (⟨s.val / 4, by omega⟩ : Fin 4) (⟨s.val % 4, by omega⟩ : Fin 4)) (by
      rw [rowMajor_val_seven, Shape.rowMajor_val_six]
      show (((((b.val * 16 + G.val) * 16 + jj.val) * 16 + hh.val) * 16 + ww.val) * 4 + s.val / 4) * 4 + s.val % 4
        = ((((b.val * 16 + G.val) * 16 + jj.val) * 16 + hh.val) * 16 + ww.val) * 16 + s.val
      omega)).trans ?_
  -- the transpose: result axes (b, G, j, hh, ww, a, q) read source axes (b, G, j, a, hh, q, ww)
  refine (transpose_apply _ _ _ _
    (ix7 b G jj (⟨s.val / 4, by omega⟩ : Fin 4) hh (⟨s.val % 4, by omega⟩ : Fin 4) ww)
    (fun β => match β with
      | ⟨0, _⟩ => rfl | ⟨1, _⟩ => rfl | ⟨2, _⟩ => rfl | ⟨3, _⟩ => rfl | ⟨4, _⟩ => rfl | ⟨5, _⟩ => rfl | ⟨6, _⟩ => rfl)).trans ?_
  -- channel 16 G + j, row 16 a + hh, column 16 q + ww
  refine (shapeCast_apply _ _ _
    (ix4 b (⟨16 * G.val + jj.val, by omega⟩ : Fin 256) (⟨16 * (s.val / 4) + hh.val, by omega⟩ : Fin 64)
      (⟨16 * (s.val % 4) + ww.val, by omega⟩ : Fin 64)) (by
      rw [Shape.rowMajor_val_four, rowMajor_val_seven]
      show ((b.val * 256 + (16 * G.val + jj.val)) * 64 + (16 * (s.val / 4) + hh.val)) * 64 + (16 * (s.val % 4) + ww.val)
        = (((((b.val * 16 + G.val) * 16 + jj.val) * 4 + s.val / 4) * 16 + hh.val) * 4 + s.val % 4) * 16 + ww.val
      omega)).trans ?_
  -- the slice from channel 256
  exact extractStridedSlice_apply _ _ _ _ _ (fun a => match a with
    | ⟨0, _⟩ => by show b.val = 0 + b.val; omega
    | ⟨1, _⟩ => by show 256 + 16 * G.val + jj.val = 256 + (16 * G.val + jj.val); omega
    | ⟨2, _⟩ => by show 16 * (s.val / 4) + hh.val = 0 + (16 * (s.val / 4) + hh.val); omega
    | ⟨3, _⟩ => by show 16 * (s.val % 4) + ww.val = 0 + (16 * (s.val % 4) + ww.val); omega)

/-- The blocks put back as images, read at `(b, c, h, w)`. -/
theorem putBack_apply {α : Type} (T : S16x16x16x16x16x16.Idx → α) (b : Fin 16) (c : Fin 256) (h w : Fin 64) :
    shapeCast S16x256x64x64
        (transpose S16x256x4x16x4x16 [0, 1, 4, 2, 5, 3]
          (shapeCast S16x256x16x16x4x4 T shapeCasts_S16x16x16x16x16x16_S16x256x16x16x4x4)
          transposes_S16x256x16x16x4x4_S16x256x4x16x4x16_0_1_4_2_5_3)
        shapeCasts_S16x256x4x16x4x16_S16x256x64x64 (ix4 b c h w)
      = T (ix6 b (⟨c.val / 16, by omega⟩ : Fin 16) (⟨c.val % 16, by omega⟩ : Fin 16) (⟨h.val % 16, by omega⟩ : Fin 16)
          (⟨w.val % 16, by omega⟩ : Fin 16) (⟨4 * (h.val / 16) + w.val / 16, by omega⟩ : Fin 16)) := by
  -- row h is (h / 16, h mod 16), column w is (w / 16, w mod 16)
  refine (shapeCast_apply _ _ _
    (ix6 b c (⟨h.val / 16, by omega⟩ : Fin 4) (⟨h.val % 16, by omega⟩ : Fin 16) (⟨w.val / 16, by omega⟩ : Fin 4)
      (⟨w.val % 16, by omega⟩ : Fin 16)) (by
      rw [Shape.rowMajor_val_six, Shape.rowMajor_val_four]
      show ((((b.val * 256 + c.val) * 4 + h.val / 16) * 16 + h.val % 16) * 4 + w.val / 16) * 16 + w.val % 16
        = ((b.val * 256 + c.val) * 64 + h.val) * 64 + w.val
      omega)).trans ?_
  -- the transpose: result axes (b, c, a, hh, q, ww) read source axes (b, c, hh, ww, a, q)
  refine (transpose_apply _ _ _ _
    (ix6 b c (⟨h.val % 16, by omega⟩ : Fin 16) (⟨w.val % 16, by omega⟩ : Fin 16) (⟨h.val / 16, by omega⟩ : Fin 4)
      (⟨w.val / 16, by omega⟩ : Fin 4))
    (fun β => match β with
      | ⟨0, _⟩ => rfl | ⟨1, _⟩ => rfl | ⟨2, _⟩ => rfl | ⟨3, _⟩ => rfl | ⟨4, _⟩ => rfl | ⟨5, _⟩ => rfl)).trans ?_
  -- channel c is (c / 16, c mod 16); the last two axes merge: block 4 a + q
  exact shapeCast_apply _ _ _ _ (by
    rw [Shape.rowMajor_val_six, Shape.rowMajor_val_six]
    show ((((b.val * 16 + c.val / 16) * 16 + c.val % 16) * 16 + h.val % 16) * 16 + w.val % 16) * 16 + (4 * (h.val / 16) + w.val / 16)
      = ((((b.val * 256 + c.val) * 16 + h.val % 16) * 16 + w.val % 16) * 4 + h.val / 16) * 4 + w.val / 16
    omega)

end Cert.ReferenceIdeal.RefBlocks

end
-- ==== Proof.RefRead.lean ====
/-
  The reference's result is the shuffled argument: read at `(b, c, h, w)`, the concatenation is the kept half below
  channel 256 and the shifted half from it on; the shifted half at `(b, c - 256, h, w)` is the blocked array at block
  `4 (h / 16) + w / 16`, gathered from block `((c - 256) / 16 + 4 (h / 16) + w / 16) mod 16`, which is the argument at
  the shuffle's source row and column.
-/
import proofs.«159428_j16930761081418_2_alg».proof.Proof.RefDefs
import proofs.«159428_j16930761081418_2_alg».proof.Proof.RefTable
import proofs.«159428_j16930761081418_2_alg».proof.Proof.RefGather
import proofs.«159428_j16930761081418_2_alg».proof.Proof.RefBlocks
import proofs.«159428_j16930761081418_2_alg».proof.Proof.Shuffle

noncomputable section

namespace Cert.ReferenceIdeal.RefRead

open Cert.ReferenceIdeal Cert.ReferenceIdeal.Gen Cert.ReferenceIdeal.RefDefs Cert.ReferenceIdeal.RefTable
open Cert.ReferenceIdeal.RefGather Cert.ReferenceIdeal.RefBlocks Cert.Shuffle Idealize.ShloMosaic Idealize.ShloMosaic.ValueIdx

variable {F : FTy → Type} [FloatOps F]

/-- A number between 0 and 15, read signed and clamped into the axis, is itself. -/
theorem clamp_closed : ∀ v : Fin 16, min (BitVec.ofNat 32 v.val).toInt.toNat 15 = v.val := by decide

/-- The mask is 1, so the select against the fill is the gather. -/
theorem taken_apply (x : S16x512x64x64.Idx → F .f32) (J : S16x16x16x16x16x16.Idx) : taken x J = gathered x J := by
  unfold taken
  rw [select_apply]
  have hm : broadcastInDim S16x16x16x16x16x16 ![1, 5] bcast_S16x16_S16x16x16x16x16x16_1_5 mask2 J = 1#1 := by
    unfold broadcastInDim
    exact mask2_apply _
  rw [hm, select_one]

/-- The gathered array at `(b, G, j, hh, ww, s)`: the blocked array at block `(G + s) mod 16`. -/
theorem gathered_apply (x : S16x512x64x64.Idx → F .f32) (b G jj hh ww s : Fin 16) :
    gathered x (ix6 b G jj hh ww s)
      = blocks x (ix6 b G jj hh ww (⟨(G.val + s.val) % 16, Nat.mod_lt _ (by decide)⟩ : Fin 16)) := by
  unfold gathered
  refine (gather_apply _ _ b G jj hh ww s).trans (congrArg (blocks x) ?_)
  funext a
  match a with
  | ⟨0, _⟩ => rfl
  | ⟨1, _⟩ => rfl
  | ⟨2, _⟩ => rfl
  | ⟨3, _⟩ => rfl
  | ⟨4, _⟩ => rfl
  | ⟨5, _⟩ =>
    exact Fin.ext (by
      show min (idx3 (ix3 G s (0 : Fin 1))).toInt.toNat 15 = (G.val + s.val) % 16
      rw [idx3_apply]
      exact clamp_closed ⟨(G.val + s.val) % 16, Nat.mod_lt _ (by decide)⟩)

/-- The reference's result is the shuffled argument. -/
theorem refTerm_eq_shuffle (x : S16x512x64x64.Idx → F .f32) : refTerm x = shuffle x := by
  funext j
  obtain ⟨b, c, h, w, rfl⟩ : ∃ (b : Fin 16) (c : Fin 512) (h w : Fin 64), j = ix4 b c h w :=
    ⟨j 0, j 1, j 2, j 3, eq_ix4 j⟩
  rw [shuffle_apply]
  have hcl : c.val < 512 := c.isLt
  have hhl : h.val < 64 := h.isLt
  have hwl : w.val < 64 := w.isLt
  unfold refTerm
  by_cases hc : c.val < 256
  · -- the kept half
    refine (concatenate_pair_apply_left (t := S16x512x64x64) 1 (kept x) (shifted x)
      concatenates_S16x256x64x64_S16x256x64x64_S16x512x64x64_d1 (ix4 b c h w) rfl (ix4 b (⟨c.val, hc⟩ : Fin 256) h w)
      (fun β => match β with | ⟨0, _⟩ => rfl | ⟨1, _⟩ => rfl | ⟨2, _⟩ => rfl | ⟨3, _⟩ => rfl)).trans ?_
    unfold kept
    refine (extractStridedSlice_apply _ _ _ _ (ix4 b c h w) (fun a => match a with
      | ⟨0, _⟩ => by show b.val = 0 + b.val; omega
      | ⟨1, _⟩ => by show c.val = 0 + c.val; omega
      | ⟨2, _⟩ => by show h.val = 0 + h.val; omega
      | ⟨3, _⟩ => by show w.val = 0 + w.val; omega)).trans ?_
    refine congrArg x ?_
    funext a
    match a with
    | ⟨0, _⟩ => rfl
    | ⟨1, _⟩ => rfl
    | ⟨2, _⟩ => exact Fin.ext (by show h.val = srcRow c.val h.val w.val; unfold srcRow; rw [if_pos hc])
    | ⟨3, _⟩ => exact Fin.ext (by show w.val = srcCol c.val h.val w.val; unfold srcCol; rw [if_pos hc])
  · -- the shifted half
    have hc' : 256 ≤ c.val := Nat.le_of_not_lt hc
    refine (concatenate_pair_apply_right (t := S16x512x64x64) 1 (kept x) (shifted x)
      concatenates_S16x256x64x64_S16x256x64x64_S16x512x64x64_d1 (ix4 b c h w) rfl rfl
      (ix4 b (⟨c.val - 256, by omega⟩ : Fin 256) h w)
      (fun β hβ => match β with
        | ⟨0, _⟩ => rfl | ⟨1, _⟩ => absurd rfl hβ | ⟨2, _⟩ => rfl | ⟨3, _⟩ => rfl)
      (by show (c.val - 256) + 256 = c.val; omega)).trans ?_
    unfold shifted
    refine (putBack_apply _ b _ h w).trans ?_
    refine (taken_apply x _).trans ?_
    refine (gathered_apply x _ _ _ _ _ _).trans ?_
    refine (blocks_apply x _ _ _ _ _ _).trans ?_
    refine congrArg x ?_
    funext a
    match a with
    | ⟨0, _⟩ => rfl
    | ⟨1, _⟩ => exact Fin.ext (by show 256 + 16 * ((c.val - 256) / 16) + (c.val - 256) % 16 = c.val; omega)
    | ⟨2, _⟩ =>
      exact Fin.ext (by
        show 16 * (((c.val - 256) / 16 + (4 * (h.val / 16) + w.val / 16)) % 16 / 4) + h.val % 16 = srcRow c.val h.val w.val
        unfold srcRow srcBlock
        rw [if_neg hc]
        omega)
    | ⟨3, _⟩ =>
      exact Fin.ext (by
        show 16 * (((c.val - 256) / 16 + (4 * (h.val / 16) + w.val / 16)) % 16 % 4) + w.val % 16 = srcCol c.val h.val w.val
        unfold srcCol srcBlock
        rw [if_neg hc]
        omega)

end Cert.ReferenceIdeal.RefRead

end
-- ==== Proof.RefValue.lean ====
/-
  The reference's result is the shuffled argument.
-/
import proofs.«159428_j16930761081418_2_alg».proof.Defs
import proofs.«159428_j16930761081418_2_alg».proof.Proof.Gen.ReferenceIdeal
import proofs.«159428_j16930761081418_2_alg».proof.Proof.Shuffle
import Idealize.ShloMosaic.Lib.StableHlo.Run
import proofs.«159428_j16930761081418_2_alg».proof.Proof.RefRun
import proofs.«159428_j16930761081418_2_alg».proof.Proof.RefTerm
import proofs.«159428_j16930761081418_2_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18) = Cert.Shuffle.shuffle (m ((c.tc : Thread nD τ).loc main_arg0))
      ∧ r.2.mem ((c.tc : Thread nD τ).loc main_arg0) = m ((c.tc : Thread nD τ).loc main_arg0) :=
  (θ_run (defs (F := Ideal)) _ _).mono
    (fun _ h c =>
      ⟨(h c main_v18).trans ((RefTerm.v18_eq (F := Ideal) _).trans (RefRead.refTerm_eq_shuffle (F := Ideal) _)),
        (h c main_arg0).trans (RefTerm.arg0_eq (F := Ideal) _)⟩)
    (RefRun.run_main (F := Ideal) m ρ)

end Cert.ReferenceIdeal.RefValue

end
-- ==== Proof.lean ====
/-
  The kernel program and the reference compute the same block shuffle of an f32[16, 512, 64, 64] array
  (Proof/Shuffle.lean): channels 0 .. 255 are kept, and in channel group `g` of channels 256 .. 511 the sixteen
  16 x 16 blocks of each image are rotated by `g`. Nothing is added or multiplied: each program only moves
  entries, so both results are the argument read at one source index per entry, and the two source indices agree.
  The kernel program reaches it by a reshape, a region that rewrites the upper half of the channels one batch
  item at a time, and a reshape back (Proof/KernelValue.lean); the reference by a gather along the block axis with
  the index table `(g + k) mod 16` (Proof/RefValue.lean). No rewrite was made when the kernel was idealized, so
  the third claim is trivial; no entry is combined with another, so finiteness of the input is never used.
-/
import proofs.«159428_j16930761081418_2_alg».proof.Defs
import proofs.«159428_j16930761081418_2_alg».proof.Proof.Gen.Kernel
import proofs.«159428_j16930761081418_2_alg».proof.Proof.Gen.Kernel.Frame
import proofs.«159428_j16930761081418_2_alg».proof.Proof.Gen.KernelIdeal
import proofs.«159428_j16930761081418_2_alg».proof.Proof.Gen.KernelIdeal.Frame
import proofs.«159428_j16930761081418_2_alg».proof.Proof.Gen.ReferenceIdeal
import proofs.«159428_j16930761081418_2_alg».proof.Proof.Gen.Pre_finite_inputs
import proofs.«159428_j16930761081418_2_alg».proof.Proof.KernelValue
import proofs.«159428_j16930761081418_2_alg».proof.Proof.RefValue
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's frame is its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RefValue.run m ρ)

/-- Both results are the shuffle of arguments that agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Shuffle.shuffle (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
